-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S80x10000 : Shape := ⟨2, ![80, 10000]⟩
abbrev S400x128 : Shape := ⟨2, ![400, 128]⟩
abbrev S80x128 : Shape := ⟨2, ![80, 128]⟩

abbrev nBuf : Space → Nat
  | .hbm => 4
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S80x10000, .f32⟩
  | .local _ .vmem, ⟨2, _⟩ => ⟨S80x10000, .f32⟩
  | .local _ .vmem, ⟨3, _⟩ => ⟨S80x10000, .f32⟩
  | .local _ .vmem, ⟨4, _⟩ => ⟨S80x10000, .f32⟩
  | .local _ .vmem, ⟨5, _⟩ => ⟨S80x10000, .f32⟩
  | .local _ .vmem, ⟨6, _⟩ => ⟨S80x10000, .f32⟩
  | .local _ .vmem, ⟨7, _⟩ => ⟨S80x10000, .f32⟩
  | .local _ .vmem, ⟨8, _⟩ => ⟨S80x10000, .f32⟩
  | .local _ .vmem, ⟨9, _⟩ => ⟨S80x10000, .f32⟩
  | .local _ .vmem, ⟨10, _⟩ => ⟨S80x10000, .f32⟩
  | .local _ .vmem, ⟨11, _⟩ => ⟨S128x128, .f32⟩
  | .local _ .vmem, ⟨12, _⟩ => ⟨S400x128, .f32⟩
  | .local _ .vmem, ⟨13, _⟩ => ⟨S400x128, .f32⟩
  | .local _ .vmem, ⟨14, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S80x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S80x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S80x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S80x10000_S80x10000_0_0 : ∀ a, (![0, 0] : Fin 2 → Nat) a + S80x10000.size a ≤ S80x10000.size a
  h_S80x10000 : 0 < S80x10000.numel
  inb_S400x128_S80x128_0_0 : ∀ a, (![0, 0] : Fin 2 → Nat) a + S80x128.size a ≤ S400x128.size a
  h_S80x128 : 0 < S80x128.numel
  inb_S400x128_S80x128_80_0 : ∀ a, (![80, 0] : Fin 2 → Nat) a + S80x128.size a ≤ S400x128.size a
  inb_S400x128_S80x128_160_0 : ∀ a, (![160, 0] : Fin 2 → Nat) a + S80x128.size a ≤ S400x128.size a
  inb_S400x128_S80x128_240_0 : ∀ a, (![240, 0] : Fin 2 → Nat) a + S80x128.size a ≤ S400x128.size a
  inb_S400x128_S80x128_320_0 : ∀ a, (![320, 0] : Fin 2 → Nat) a + S80x128.size a ≤ S400x128.size a
  dot_S10000x128_S128x128_S10000x128_1_0_0_1_n_n_wf : DotDims.WF S10000x128 S128x128 S10000x128 [1] [0] [0] [1] [] []
  dot_S80x10000_S10000x128_S80x128_1_0_0_1_n_n_wf : DotDims.WF S80x10000 S10000x128 S80x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S80x10000.size a ≤ S10000x10000.size a
  hwx0_1 : ∀ i : grid0.Coords, EltTy.bits .f32 = 32 ∨ (Rect.block (s := S10000x10000) S80x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S80x10000.size a ≤ S10000x10000.size a
  hwx0_2 : ∀ i : grid0.Coords, EltTy.bits .f32 = 32 ∨ (Rect.block (s := S10000x10000) S80x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S80x10000.size a ≤ S10000x10000.size a
  hwx0_3 : ∀ i : grid0.Coords, EltTy.bits .f32 = 32 ∨ (Rect.block (s := S10000x10000) S80x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S80x10000.size a ≤ S10000x10000.size a
  hwx0_4 : ∀ i : grid0.Coords, EltTy.bits .f32 = 32 ∨ (Rect.block (s := S10000x10000) S80x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S80x10000.size a ≤ S10000x10000.size a
  hwx0_5 : ∀ i : grid0.Coords, EltTy.bits .f32 = 32 ∨ (Rect.block (s := S10000x10000) S80x10000.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .f32 = 32 ∨ (Rect.block (s := S10000x128) S400x128.size (cc0_transform_7 i) (hinb0_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S80x10000_S10000x128_S80x128_1_0_0_1_n_n : DotDims S80x10000 S10000x128 S80x128 where
  lhsContracting := [1]
  rhsContracting := [0]
  lhsNonContracting := [0]
  rhsNonContracting := [1]
  lhsBatch := []
  rhsBatch := []
  wf := dot_S80x10000_S10000x128_S80x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S80x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S80x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S80x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S80x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S80x10000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.K.Setting.lean ====
/-
  The graph-convolution kernel out = A · (x · W), as printed: the setting its run is stated in.

  The kernel walks a grid of 25 points. Point t sees the whole of x and W (fetched once, at the first point), five
  consecutive 80-row blocks of A — rows 400 t + 80 s, s = 0 … 4, each through a window of its own on the ONE array A —
  and a 400-row block of the result, rows 400 t … 400 t + 399. A scratch array h, kept between points, is filled with
  x · W at the first point and only read afterwards. This file names the arrays as the region finds them, each window's
  block at a point, the condition that singles out the first point, and the memory references the body is called with.
-/
import proofs.«170854_g16054587753042_cont_sun_c4_396_23_alg».proof.Proof.Gen.Kernel.Launch
import proofs.«170854_g16054587753042_cont_sun_c4_396_23_alg».proof.Proof.Gen.Kernel.Skeleton
import proofs.«170854_g16054587753042_cont_sun_c4_396_23_alg».proof.Proof.Gen.Kernel.Points
import Idealize.ShloMosaic.Lib.Pipeline.FrameBody
import Idealize.ShloMosaic.Lib.Pipeline.Launch
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program has no host operation before the region: the region finds every array as the launch memory has it. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's one branch: taken when the grid coordinate is zero. -/
abbrev firstPt (i : grid0.Coords) : Prop :=
  (Scalar.cmpi .ne (Scalar.extui (Scalar.cmpi .eq (BitVec.ofNat 32 (i 0).val) 0#32)) 0#32) = 1#1

/-- It is taken at the first point and at no other. -/
theorem firstPt_iff : ∀ t : Fin cfg0.N, firstPt (grid0.coords t) ↔ t.val = 0 :=
  (by decide +kernel : ∀ t : Fin grid0.N, firstPt (grid0.coords t) ↔ t.val = 0)

/-- The memory reference each window hands the body at point `t`, and that it is a whole buffer. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S80x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S80x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S80x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S80x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S80x10000 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S400x128 .f32 := win0_7.stage (cfg0.slots t 7)
abbrev hs7 (t : Fin cfg0.N) : (ms7 t).IsWhole := hstage0_7 ((cfg0.slots t 7).cast nbuf0_7)
/-- The scratch array h: a whole buffer of the kernel's own. -/
abbrev scM : Memref sig .tc .vmem S10000x128 .f32 := Memref.whole cc0_scratch0

/-- One staging buffer of the result window, and the scratch, as views: what they hold is stated through them. -/
abbrev VO : View sig .tc .vmem S400x128 .f32 := (Memref.whole cc0_stg7_0 : Memref sig .tc .vmem S400x128 .f32).view
abbrev VS : View sig .tc .vmem S10000x128 .f32 := (scM : Memref sig .tc .vmem S10000x128 .f32).view

end Cert.Kernel.Hand

end
-- ==== Proof.K.RunLater.lean ====
/-
  The body at a point after the first. The branch is not taken: the body reads the five blocks of A and the scratch h,
  and stores the five products A_s · h into the five 80-row parts of the result's buffer. The inputs and the scratch are
  handed back as they were; the result's buffer is handed back with those five stores written.
-/
import proofs.«170854_g16054587753042_cont_sun_c4_396_23_alg».proof.Proof.K.Setting

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The stores a later point leaves in the result's buffer (last first), with the proof that from whole buffers — the
    inputs at `x0 … x6`, the scratch at `xs`, the result's at anything — the body runs to any continuation that holds
    for the inputs and the scratch unchanged and the result's buffer with those stores written. -/
noncomputable def runLater (c : Dev nD) (i : grid0.Coords) (a1 : Memref sig .tc .vmem S10000x128 .f32) (h1 : a1.IsWhole) (a2 : Memref sig .tc .vmem S80x10000 .f32) (h2 : a2.IsWhole) (a3 : Memref sig .tc .vmem S80x10000 .f32) (h3 : a3.IsWhole) (a4 : Memref sig .tc .vmem S80x10000 .f32) (h4 : a4.IsWhole) (a5 : Memref sig .tc .vmem S80x10000 .f32) (h5 : a5.IsWhole) (a6 : Memref sig .tc .vmem S80x10000 .f32) (h6 : a6.IsWhole) (a7 : Memref sig .tc .vmem S128x128 .f32) (h7 : a7.IsWhole) (a8 : Memref sig .tc .vmem S400x128 .f32) (h8 : a8.IsWhole) (a9 : Memref sig .tc .vmem S10000x128 .f32) (h9 : a9.IsWhole) (hc : ¬firstPt i)
    (x0 : Vec F S10000x128 .f32) (x1 : Vec F S80x10000 .f32) (x2 : Vec F S80x10000 .f32) (x3 : Vec F S80x10000 .f32) (x4 : Vec F S80x10000 .f32) (x5 : Vec F S80x10000 .f32) (x6 : Vec F S128x128 .f32) (xs : Vec F S10000x128 .f32) :
    { L : List (View.Piece (Elt F) S400x128 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ d, owns (c : Thread nD τ) a8 fullShare d) ∗ owns (c : Thread nD τ) a9 fullShare xs
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ f, a8.view.loc (c : Thread nD τ) ↦[a8.view.set]{fullShare} a8.view.writes (Elt F) f L) ∗ owns (c : Thread nD τ) a9 fullShare xs) -∗ K ⟨⟩))
          ⊢ wp frame (wpE (defs₀ (F := F)) Variants.none c none) E (cc0_body i a1 h1 a2 h2 a3 h3 a4 h4 a5 h5 a6 h6 a7 h7 a8 h8 a9 h9) K } := by
  refine ⟨?_, fun E K => ?run⟩
  case run =>
    simp only [cc0_body_eq_skeleton]; unfold cc0_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := h1.eq_unread hf0; obtain rfl := h2.eq_unread hf1; obtain rfl := h3.eq_unread hf2; obtain rfl := h4.eq_unread hf3
    obtain rfl := h5.eq_unread hf4; obtain rfl := h6.eq_unread hf5; obtain rfl := h7.eq_unread hf6; obtain rfl := h9.eq_unread hfs
    sl_exec (disch := exact hc)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    isplitl [H7]; · iexists _; iexact H7
    iexists _; isplitr; · ipureintro; exact h9.read_unread _
    iexact HS

end Cert.Kernel.Hand

end
-- ==== Proof.K.RunFirst.lean ====
/-
  The body at the first point. The branch is taken: the body reads x and W, stores their product x · W over the whole
  scratch h, then proceeds as at every point — reads the five blocks of A and the scratch, and stores the five products
  A_s · h into the five 80-row parts of the result's buffer. The inputs are handed back as they were; the scratch with
  its one store written, the result's buffer with its five.
-/
import proofs.«170854_g16054587753042_cont_sun_c4_396_23_alg».proof.Proof.K.RunLater

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The stores the first point leaves in the result's buffer and in the scratch (last first), with the proof that from
    whole buffers — the inputs at `x0 … x6`, the scratch and the result's buffer at anything — the body runs to any
    continuation that holds for the inputs unchanged and the two written buffers with those stores written. -/
noncomputable def runFirst (c : Dev nD) (i : grid0.Coords) (a1 : Memref sig .tc .vmem S10000x128 .f32) (h1 : a1.IsWhole) (a2 : Memref sig .tc .vmem S80x10000 .f32) (h2 : a2.IsWhole) (a3 : Memref sig .tc .vmem S80x10000 .f32) (h3 : a3.IsWhole) (a4 : Memref sig .tc .vmem S80x10000 .f32) (h4 : a4.IsWhole) (a5 : Memref sig .tc .vmem S80x10000 .f32) (h5 : a5.IsWhole) (a6 : Memref sig .tc .vmem S80x10000 .f32) (h6 : a6.IsWhole) (a7 : Memref sig .tc .vmem S128x128 .f32) (h7 : a7.IsWhole) (a8 : Memref sig .tc .vmem S400x128 .f32) (h8 : a8.IsWhole) (a9 : Memref sig .tc .vmem S10000x128 .f32) (h9 : a9.IsWhole) (hc : firstPt i)
    (x0 : Vec F S10000x128 .f32) (x1 : Vec F S80x10000 .f32) (x2 : Vec F S80x10000 .f32) (x3 : Vec F S80x10000 .f32) (x4 : Vec F S80x10000 .f32) (x5 : Vec F S80x10000 .f32) (x6 : Vec F S128x128 .f32) :
    Σ' (L : List (View.Piece (Elt F) S400x128 .f32)), { LS : List (View.Piece (Elt F) S10000x128 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ d, owns (c : Thread nD τ) a8 fullShare d) ∗ (∃ d, owns (c : Thread nD τ) a9 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ f, a8.view.loc (c : Thread nD τ) ↦[a8.view.set]{fullShare} a8.view.writes (Elt F) f L) ∗ (∃ f, a9.view.loc (c : Thread nD τ) ↦[a9.view.set]{fullShare} a9.view.writes (Elt F) f LS)) -∗ K ⟨⟩))
          ⊢ wp frame (wpE (defs₀ (F := F)) Variants.none c none) E (cc0_body i a1 h1 a2 h2 a3 h3 a4 h4 a5 h5 a6 h6 a7 h7 a8 h8 a9 h9) K } := by
  refine ⟨?_, ?_, fun E K => ?run⟩
  case run =>
    simp only [cc0_body_eq_skeleton]; unfold cc0_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds, %fs, -, HS⟩, Hk⟩
    obtain rfl := h1.eq_unread hf0; obtain rfl := h2.eq_unread hf1; obtain rfl := h3.eq_unread hf2; obtain rfl := h4.eq_unread hf3
    obtain rfl := h5.eq_unread hf4; obtain rfl := h6.eq_unread hf5; obtain rfl := h7.eq_unread hf6
    sl_exec (disch := exact hc)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    isplitl [H7]; · iexists _; iexact H7
    iexists _; iexact HS

end Cert.Kernel.Hand

end
-- ==== Proof.K.Data.lean ====
/-
  The proof data of the graph-convolution kernel, and the body's obligation at every point.

  After the body at point t each input window's buffer still holds the window's block — all of x, all of W, and the
  five 80-row blocks of A at rows 400 t + 80 s —, and the result window's buffer holds what the point's five stores
  left: rows 80 s … 80 s + 79 of it are A_s · h. The scratch h holds anything before the first point and x · W, as the
  first point stored it, ever after: that is the invariant carried from point to point. The one array A is read by
  five windows; each holds it at a fifth share (the halves of halves of the full share), which is all a read needs.
-/
import proofs.«170854_g16054587753042_cont_sun_c4_396_23_alg».proof.Proof.K.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's first point. -/
def t₀ : Fin cfg0.N := ⟨0, by decide⟩

/-! ## What the stores leave -/

/-- The five stores of a later point tile the result's 400 × 128 buffer in 80 × 128 blocks. -/
theorem coverLater (c : Dev nD) (i : grid0.Coords) (a1 : Memref sig .tc .vmem S10000x128 .f32) (h1 : a1.IsWhole) (a2 : Memref sig .tc .vmem S80x10000 .f32) (h2 : a2.IsWhole) (a3 : Memref sig .tc .vmem S80x10000 .f32) (h3 : a3.IsWhole) (a4 : Memref sig .tc .vmem S80x10000 .f32) (h4 : a4.IsWhole) (a5 : Memref sig .tc .vmem S80x10000 .f32) (h5 : a5.IsWhole) (a6 : Memref sig .tc .vmem S80x10000 .f32) (h6 : a6.IsWhole) (a7 : Memref sig .tc .vmem S128x128 .f32) (h7 : a7.IsWhole) (a8 : Memref sig .tc .vmem S400x128 .f32) (h8 : a8.IsWhole) (a9 : Memref sig .tc .vmem S10000x128 .f32) (h9 : a9.IsWhole) (hc : ¬firstPt i)
    (x0 : Vec F S10000x128 .f32) (x1 : Vec F S80x10000 .f32) (x2 : Vec F S80x10000 .f32) (x3 : Vec F S80x10000 .f32) (x4 : Vec F S80x10000 .f32) (x5 : Vec F S80x10000 .f32) (x6 : Vec F S128x128 .f32) (xs : Vec F S10000x128 .f32) (y : S400x128.Idx) :
    ∃ pc ∈ (runLater c i a1 h1 a2 h2 a3 h3 a4 h4 a5 h5 a6 h6 a7 h7 a8 h8 a9 h9 hc x0 x1 x2 x3 x4 x5 x6 xs).1, y ∈ pc.1.set :=
  View.cover_of_tiledL (runLater c i a1 h1 a2 h2 a3 h3 a4 h4 a5 h5 a6 h6 a7 h7 a8 h8 a9 h9 hc x0 x1 x2 x3 x4 x5 x6 xs).1 S80x128.size (by sl_kernel_rfl) y

/-- What a later point leaves in the result's buffer: its stores read back. -/
def outLater (c : Dev nD) (i : grid0.Coords) (a1 : Memref sig .tc .vmem S10000x128 .f32) (h1 : a1.IsWhole) (a2 : Memref sig .tc .vmem S80x10000 .f32) (h2 : a2.IsWhole) (a3 : Memref sig .tc .vmem S80x10000 .f32) (h3 : a3.IsWhole) (a4 : Memref sig .tc .vmem S80x10000 .f32) (h4 : a4.IsWhole) (a5 : Memref sig .tc .vmem S80x10000 .f32) (h5 : a5.IsWhole) (a6 : Memref sig .tc .vmem S80x10000 .f32) (h6 : a6.IsWhole) (a7 : Memref sig .tc .vmem S128x128 .f32) (h7 : a7.IsWhole) (a8 : Memref sig .tc .vmem S400x128 .f32) (h8 : a8.IsWhole) (a9 : Memref sig .tc .vmem S10000x128 .f32) (h9 : a9.IsWhole) (hc : ¬firstPt i)
    (x0 : Vec F S10000x128 .f32) (x1 : Vec F S80x10000 .f32) (x2 : Vec F S80x10000 .f32) (x3 : Vec F S80x10000 .f32) (x4 : Vec F S80x10000 .f32) (x5 : Vec F S80x10000 .f32) (x6 : Vec F S128x128 .f32) (xs : Vec F S10000x128 .f32) : Vec F S400x128 .f32 :=
  VO.read (Elt F) (VO.writes (Elt F) VO.junk (runLater c i a1 h1 a2 h2 a3 h3 a4 h4 a5 h5 a6 h6 a7 h7 a8 h8 a9 h9 hc x0 x1 x2 x3 x4 x5 x6 xs).1)

/-- The five stores of the first point tile the result's buffer likewise. -/
theorem coverFirst (c : Dev nD) (i : grid0.Coords) (a1 : Memref sig .tc .vmem S10000x128 .f32) (h1 : a1.IsWhole) (a2 : Memref sig .tc .vmem S80x10000 .f32) (h2 : a2.IsWhole) (a3 : Memref sig .tc .vmem S80x10000 .f32) (h3 : a3.IsWhole) (a4 : Memref sig .tc .vmem S80x10000 .f32) (h4 : a4.IsWhole) (a5 : Memref sig .tc .vmem S80x10000 .f32) (h5 : a5.IsWhole) (a6 : Memref sig .tc .vmem S80x10000 .f32) (h6 : a6.IsWhole) (a7 : Memref sig .tc .vmem S128x128 .f32) (h7 : a7.IsWhole) (a8 : Memref sig .tc .vmem S400x128 .f32) (h8 : a8.IsWhole) (a9 : Memref sig .tc .vmem S10000x128 .f32) (h9 : a9.IsWhole) (hc : firstPt i)
    (x0 : Vec F S10000x128 .f32) (x1 : Vec F S80x10000 .f32) (x2 : Vec F S80x10000 .f32) (x3 : Vec F S80x10000 .f32) (x4 : Vec F S80x10000 .f32) (x5 : Vec F S80x10000 .f32) (x6 : Vec F S128x128 .f32) (y : S400x128.Idx) :
    ∃ pc ∈ (runFirst c i a1 h1 a2 h2 a3 h3 a4 h4 a5 h5 a6 h6 a7 h7 a8 h8 a9 h9 hc x0 x1 x2 x3 x4 x5 x6).1, y ∈ pc.1.set :=
  View.cover_of_tiledL (runFirst c i a1 h1 a2 h2 a3 h3 a4 h4 a5 h5 a6 h6 a7 h7 a8 h8 a9 h9 hc x0 x1 x2 x3 x4 x5 x6).1 S80x128.size (by sl_kernel_rfl) y

/-- What the first point leaves in the result's buffer. -/
def outFirst (c : Dev nD) (i : grid0.Coords) (a1 : Memref sig .tc .vmem S10000x128 .f32) (h1 : a1.IsWhole) (a2 : Memref sig .tc .vmem S80x10000 .f32) (h2 : a2.IsWhole) (a3 : Memref sig .tc .vmem S80x10000 .f32) (h3 : a3.IsWhole) (a4 : Memref sig .tc .vmem S80x10000 .f32) (h4 : a4.IsWhole) (a5 : Memref sig .tc .vmem S80x10000 .f32) (h5 : a5.IsWhole) (a6 : Memref sig .tc .vmem S80x10000 .f32) (h6 : a6.IsWhole) (a7 : Memref sig .tc .vmem S128x128 .f32) (h7 : a7.IsWhole) (a8 : Memref sig .tc .vmem S400x128 .f32) (h8 : a8.IsWhole) (a9 : Memref sig .tc .vmem S10000x128 .f32) (h9 : a9.IsWhole) (hc : firstPt i)
    (x0 : Vec F S10000x128 .f32) (x1 : Vec F S80x10000 .f32) (x2 : Vec F S80x10000 .f32) (x3 : Vec F S80x10000 .f32) (x4 : Vec F S80x10000 .f32) (x5 : Vec F S80x10000 .f32) (x6 : Vec F S128x128 .f32) : Vec F S400x128 .f32 :=
  VO.read (Elt F) (VO.writes (Elt F) VO.junk (runFirst c i a1 h1 a2 h2 a3 h3 a4 h4 a5 h5 a6 h6 a7 h7 a8 h8 a9 h9 hc x0 x1 x2 x3 x4 x5 x6).1)

/-- The first point's one store into the scratch covers it. -/
theorem coverScratch (c : Dev nD) (i : grid0.Coords) (a1 : Memref sig .tc .vmem S10000x128 .f32) (h1 : a1.IsWhole) (a2 : Memref sig .tc .vmem S80x10000 .f32) (h2 : a2.IsWhole) (a3 : Memref sig .tc .vmem S80x10000 .f32) (h3 : a3.IsWhole) (a4 : Memref sig .tc .vmem S80x10000 .f32) (h4 : a4.IsWhole) (a5 : Memref sig .tc .vmem S80x10000 .f32) (h5 : a5.IsWhole) (a6 : Memref sig .tc .vmem S80x10000 .f32) (h6 : a6.IsWhole) (a7 : Memref sig .tc .vmem S128x128 .f32) (h7 : a7.IsWhole) (a8 : Memref sig .tc .vmem S400x128 .f32) (h8 : a8.IsWhole) (a9 : Memref sig .tc .vmem S10000x128 .f32) (h9 : a9.IsWhole) (hc : firstPt i)
    (x0 : Vec F S10000x128 .f32) (x1 : Vec F S80x10000 .f32) (x2 : Vec F S80x10000 .f32) (x3 : Vec F S80x10000 .f32) (x4 : Vec F S80x10000 .f32) (x5 : Vec F S80x10000 .f32) (x6 : Vec F S128x128 .f32) (y : S10000x128.Idx) :
    ∃ pc ∈ (runFirst c i a1 h1 a2 h2 a3 h3 a4 h4 a5 h5 a6 h6 a7 h7 a8 h8 a9 h9 hc x0 x1 x2 x3 x4 x5 x6).2.1, y ∈ pc.1.set :=
  View.cover_of_tiledL (runFirst c i a1 h1 a2 h2 a3 h3 a4 h4 a5 h5 a6 h6 a7 h7 a8 h8 a9 h9 hc x0 x1 x2 x3 x4 x5 x6).2.1 S10000x128.size (by sl_kernel_rfl) y

/-- What the first point leaves in the scratch. -/
def featFirst (c : Dev nD) (i : grid0.Coords) (a1 : Memref sig .tc .vmem S10000x128 .f32) (h1 : a1.IsWhole) (a2 : Memref sig .tc .vmem S80x10000 .f32) (h2 : a2.IsWhole) (a3 : Memref sig .tc .vmem S80x10000 .f32) (h3 : a3.IsWhole) (a4 : Memref sig .tc .vmem S80x10000 .f32) (h4 : a4.IsWhole) (a5 : Memref sig .tc .vmem S80x10000 .f32) (h5 : a5.IsWhole) (a6 : Memref sig .tc .vmem S80x10000 .f32) (h6 : a6.IsWhole) (a7 : Memref sig .tc .vmem S128x128 .f32) (h7 : a7.IsWhole) (a8 : Memref sig .tc .vmem S400x128 .f32) (h8 : a8.IsWhole) (a9 : Memref sig .tc .vmem S10000x128 .f32) (h9 : a9.IsWhole) (hc : firstPt i)
    (x0 : Vec F S10000x128 .f32) (x1 : Vec F S80x10000 .f32) (x2 : Vec F S80x10000 .f32) (x3 : Vec F S80x10000 .f32) (x4 : Vec F S80x10000 .f32) (x5 : Vec F S80x10000 .f32) (x6 : Vec F S128x128 .f32) : Vec F S10000x128 .f32 :=
  VS.read (Elt F) (VS.writes (Elt F) VS.junk (runFirst c i a1 h1 a2 h2 a3 h3 a4 h4 a5 h5 a6 h6 a7 h7 a8 h8 a9 h9 hc x0 x1 x2 x3 x4 x5 x6).2.1)

/-! ## Point by point -/

/-- The scratch h after the first point (and at every later one, which only reads it). -/
def H (c : Dev nD) : Vec F S10000x128 .f32 :=
  featFirst c (grid0.coords t₀) (ms0 t₀) (hs0 t₀) (ms1 t₀) (hs1 t₀) (ms2 t₀) (hs2 t₀) (ms3 t₀) (hs3 t₀) (ms4 t₀) (hs4 t₀) (ms5 t₀) (hs5 t₀) (ms6 t₀) (hs6 t₀) (ms7 t₀) (hs7 t₀) scM (Memref.isWhole_whole _) ((firstPt_iff t₀).mpr rfl) (iblk m c 0 t₀) (iblk m c 1 t₀) (iblk m c 2 t₀) (iblk m c 3 t₀) (iblk m c 4 t₀) (iblk m c 5 t₀) (iblk m c 6 t₀)

/-- What the result window's buffer holds after the body at point `t`. -/
def outAt (c : Dev nD) (t : Fin cfg0.N) : Vec F S400x128 .f32 :=
  if h : t.val = 0 then
    outFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((firstPt_iff t).mpr h) (iblk m c 0 t) (iblk m c 1 t) (iblk m c 2 t) (iblk m c 3 t) (iblk m c 4 t) (iblk m c 5 t) (iblk m c 6 t)
  else
    outLater c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h' => h ((firstPt_iff t).mp h')) (iblk m c 0 t) (iblk m c 1 t) (iblk m c 2 t) (iblk m c 3 t) (iblk m c 4 t) (iblk m c 5 t) (iblk m c 6 t) (H m c)

theorem outAt_first (c : Dev nD) (t : Fin cfg0.N) (h : t.val = 0) :
    outAt m c t = outFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((firstPt_iff t).mpr h) (iblk m c 0 t) (iblk m c 1 t) (iblk m c 2 t) (iblk m c 3 t) (iblk m c 4 t) (iblk m c 5 t) (iblk m c 6 t) := dif_pos h

theorem outAt_later (c : Dev nD) (t : Fin cfg0.N) (h : ¬t.val = 0) :
    outAt m c t = outLater c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h' => h ((firstPt_iff t).mp h')) (iblk m c 0 t) (iblk m c 1 t) (iblk m c 2 t) (iblk m c 3 t) (iblk m c 4 t) (iblk m c 5 t) (iblk m c 6 t) (H m c) := dif_neg h

/-- The invariant before position `n`: the scratch at anything before the first point, at h afterwards. -/
def PhiS (c : Dev nD) : ℕ → sProp 𝕄
  | 0 => iprop(∃ d, owns (c : Thread nD τ) scM fullShare d)
  | _ + 1 => owns (c : Thread nD τ) scM fullShare (H m c)

theorem PhiS_zero (c : Dev nD) (n : ℕ) (hz : n = 0) : PhiS m c n = iprop(∃ d, owns (c : Thread nD τ) scM fullShare d) := by
  subst hz; rfl

theorem PhiS_pos (c : Dev nD) (n : ℕ) (hz : n ≠ 0) : PhiS m c n = owns (c : Thread nD τ) scM fullShare (H m c) := by
  cases n with
  | zero => exact absurd rfl hz
  | succ n => rfl

/-! ## The proof data -/

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val
  q w := match w with
    | ⟨0, _⟩ => fullShare
    | ⟨1, _⟩ => fullShare.left
    | ⟨2, _⟩ => fullShare.right.left
    | ⟨3, _⟩ => fullShare.right.right.left
    | ⟨4, _⟩ => fullShare.right.right.right.left
    | ⟨5, _⟩ => fullShare.right.right.right.right
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t := by dsimp only [dats]

/-- Each input window's buffer holds the window's block at every point, fetched there or not: where it is not
    fetched its block index has not moved, and the body left the block in place. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rfl) t d).trans (by unfold Dat.fetched Dat.blockOf iblk; rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rfl) t d).trans (by unfold Dat.fetched Dat.blockOf iblk; rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rfl) t d).trans (by unfold Dat.fetched Dat.blockOf iblk; rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rfl) t d).trans (by unfold Dat.fetched Dat.blockOf iblk; rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rfl) t d).trans (by unfold Dat.fetched Dat.blockOf iblk; rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rfl) t d).trans (by unfold Dat.fetched Dat.blockOf iblk; rfl)
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rfl) t d).trans (by unfold Dat.fetched Dat.blockOf iblk; rfl)

end Cert.Kernel.Hand

end
-- ==== Proof.K.Body.lean ====
/-
  The body's obligation. At a point the pipeline hands the body each window's current buffer — every input's at the
  window's block, the result's at anything — and the invariant: the scratch at anything (first point) or at h (later).
  The body runs (the first-point run or the later-point run, by the branch's condition) and hands everything back:
  inputs unchanged, the result's buffer at the point's stores read back, the scratch at h.
-/
import proofs.«170854_g16054587753042_cont_sun_c4_396_23_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No window is ever idle: each buffer is handed back at what the body left in it. -/
theorem leaves0 (c : Dev nD) (t : Fin cfg0.N) :
    (dats m 0 c).leavesExact 0 t = owns (c : Thread nD τ) (ms0 t) fullShare ((dats m 0 c).after 0 t) := rfl
theorem leaves1 (c : Dev nD) (t : Fin cfg0.N) :
    (dats m 0 c).leavesExact 1 t = owns (c : Thread nD τ) (ms1 t) fullShare ((dats m 0 c).after 1 t) := rfl
theorem leaves2 (c : Dev nD) (t : Fin cfg0.N) :
    (dats m 0 c).leavesExact 2 t = owns (c : Thread nD τ) (ms2 t) fullShare ((dats m 0 c).after 2 t) := rfl
theorem leaves3 (c : Dev nD) (t : Fin cfg0.N) :
    (dats m 0 c).leavesExact 3 t = owns (c : Thread nD τ) (ms3 t) fullShare ((dats m 0 c).after 3 t) := rfl
theorem leaves4 (c : Dev nD) (t : Fin cfg0.N) :
    (dats m 0 c).leavesExact 4 t = owns (c : Thread nD τ) (ms4 t) fullShare ((dats m 0 c).after 4 t) := rfl
theorem leaves5 (c : Dev nD) (t : Fin cfg0.N) :
    (dats m 0 c).leavesExact 5 t = owns (c : Thread nD τ) (ms5 t) fullShare ((dats m 0 c).after 5 t) := rfl
theorem leaves6 (c : Dev nD) (t : Fin cfg0.N) :
    (dats m 0 c).leavesExact 6 t = owns (c : Thread nD τ) (ms6 t) fullShare ((dats m 0 c).after 6 t) := rfl
theorem leaves7 (c : Dev nD) (t : Fin cfg0.N) :
    (dats m 0 c).leavesExact 7 t = owns (c : Thread nD τ) (ms7 t) fullShare ((dats m 0 c).after 7 t) := rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = owns (c : Thread nD τ) scM fullShare (H m c) from rfl]
  rw [leaves0, leaves1, leaves2, leaves3, leaves4, leaves5, leaves6, leaves7,
    after0, after1, after2, after3, after4, after5, after6, after7, Phi_castSucc]
  by_cases hz : t.val = 0
  · rw [outAt_first m c t hz, PhiS_zero m c _ hz]
    unfold outFirst
    obtain rfl : t = t₀ := Fin.ext hz
    unfold H featFirst
    iintro ⟨⟨%ds, HS⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid0.coords t₀) _ _ _ _ _ _ _ _ _ _ _ _ _ _ _ _ _ _ ((firstPt_iff t₀).mpr rfl) (iblk m c 0 t₀) (iblk m c 1 t₀) (iblk m c 2 t₀) (iblk m c 3 t₀) (iblk m c 4 t₀) (iblk m c 5 t₀) (iblk m c 6 t₀)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexists _; iexact HS
    iintro ⟨H0, H1, H2, H3, H4, H5, H6, ⟨%e7, H7⟩, ⟨%es, HS⟩⟩
    isplitl [HS]
    · unfold owns; iexists _; isplitr
      swap; · iexact HS
      ipureintro; exact View.read_writes_of_cover _ _ _ _ _ (coverScratch c _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverFirst c _ _ _ _ _ _ _ _ _ _ _ _ _ _ _ _ _ _ _ _ _ _ _ _ _ _ _)
  · rw [outAt_later m c t hz, PhiS_pos m c _ hz]
    unfold outLater
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLater c (grid0.coords t) _ _ _ _ _ _ _ _ _ _ _ _ _ _ _ _ _ _ (fun h' => hz ((firstPt_iff t).mp h')) (iblk m c 0 t) (iblk m c 1 t) (iblk m c 2 t) (iblk m c 3 t) (iblk m c 4 t) (iblk m c 5 t) (iblk m c 6 t) (H m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e7, H7⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverLater c _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
/-
  The launch of the graph-convolution kernel and its frame.

  The region is handed the buffers behind its windows' arrays, each whole: x, A, W and the result. The one array A is
  read through five windows, so its full share is dealt among them — a half, a quarter, an eighth and two sixteenths —;
  every other array goes whole to its one window. The scratch h is the only scoped buffer that is no staging buffer:
  it is the invariant before the first point (at anything) and after the last (at x · W, then forgotten). From the
  body's obligation the pipeline library then gives the run: every weakly fair execution terminates without a fault,
  and each window's array ends at what the library computes from the proof data — an input at its entry contents,
  the result at its entry contents overwritten block by block by what each point left.
-/
import proofs.«170854_g16054587753042_cont_sun_c4_396_23_alg».proof.Proof.K.Body
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: every staging cell's owner at round 0 and a duty token for every transfer the pipeline issues. -/
def u₀ : UR sig nD τ := initOf (Pipeline.cells cfgs cellOf_inj) (Pipeline.launchToks cfgs cellOf_inj)

/-- A chain of four, spelled out. -/
theorem bigSepL_four {M : Type _} [URA M] {I : Type _} (a b c d : I) (Φ : I → sProp M) :
    bigSepL [a, b, c, d] Φ = iprop(Φ a ∗ Φ b ∗ Φ c ∗ Φ d) := rfl

/-- A window's array is a whole buffer: held through the window at a share, it is the buffer held at that share. -/
theorem arr_pt (c : Dev nD) (w : Fin cfg0.W) (f : Buf (Elt F) ((cfg0.win w).arr.view.loc (c : Thread nD τ))) :
    ((cfg0.win w).arr.view.loc (c : Thread nD τ) ↦[(cfg0.win w).arr.view.set]{(dats m 0 c).share w} f : sProp 𝕄)
      = (((c : Thread nD τ).loc (Pipeline.arrRef spec0 w)) ↦{(dats m 0 c).share w} f) := by
  rw [(arr_whole0 w).set_eq_univ]

/-- The buffers behind the arrays, each whole at the full share, make the windows' arrays at their shares: A's full
    share is split in two four times, a part to each of its five windows. -/
theorem hsplit (c : Dev nD) : Pipeline.arrBufs spec0 c (V m c) ⊢ (dats m 0 c).arrays ((dats m 0 c).arrAt · 0) := by
  unfold Pipeline.arrBufs Dat.arrays
  rw [bigSep_eq_bigSepL_of_eq [main_arg0, main_arg1, main_arg2, main_v0] (by decide) (by decide),
    bigSep_congr (fun w _ => arr_pt m c w ((dats m 0 c).arrAt w 0)), bigSep_W0, bigSepL_four]
  beta_reduce
  iintro ⟨Hx, HA, HW, Ho⟩
  ihave HA' := (pointsTo_share (PosShare.mem_left_op_right fullShare)).1 $$ HA
  icases HA' with ⟨HA1, HA⟩
  ihave HA' := (pointsTo_share (PosShare.mem_left_op_right fullShare.right)).1 $$ HA
  icases HA' with ⟨HA2, HA⟩
  ihave HA' := (pointsTo_share (PosShare.mem_left_op_right fullShare.right.right)).1 $$ HA
  icases HA' with ⟨HA3, HA⟩
  ihave HA' := (pointsTo_share (PosShare.mem_left_op_right fullShare.right.right.right)).1 $$ HA
  icases HA' with ⟨HA4, HA5⟩
  isplitl [Hx]; · iexact Hx
  isplitl [HA1]; · iexact HA1
  isplitl [HA2]; · iexact HA2
  isplitl [HA3]; · iexact HA3
  isplitl [HA4]; · iexact HA4
  isplitl [HA5]; · iexact HA5
  isplitl [HW]; · iexact HW
  iexact Ho

/-- At the compiled mesh, for any float values, from any memory with zero counters: every weakly fair execution of
    @main on the TensorCores terminates, nothing faulting, and every final state has each window's array at what the
    library computes it holds after the last write-back. -/
theorem run_main : θ_run defs (onTc (τ := τ) (main (F := F))) (s₀ m ρ)
    (fun r => ∀ (c : Dev nD) (w : Fin cfg0.W), r.2.mem ((cfg0.win w).arr.view.loc (c : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := u₀) (hu₀ := BI.Entails.refl _)
    (V := V m)
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := fun c => by
      rw [scopedRest0_eq, show (dats m 0 c).Φ 0 = iprop(∃ d, owns (c : Thread nD τ) scM fullShare d) from rfl]
      simp only [scM, owns_whole]
      iintro ⟨-, H⟩; iexact H)
    (hout := fun c => by
      rw [scopedRest0_eq, show (dats m 0 c).Φ (Fin.last cfg0.N) = owns (c : Thread nD τ) scM fullShare (H m c) from rfl]
      simp only [scM, owns_whole]
      iintro H; isplitr; · iempintro
      iexists _; iexact H)
    (QY := fun _ _ => True)
    (hY := fun c s' => by
      iintro ⟨-, -, HSI⟩; imodintro
      isplitr; · ipureintro; trivial
      iexact HSI)
    (hQ := fun _ h c w => (h c).1 w)

/-- The run, read at the program's arrays: the result array at what the proof data computes, the three arguments
    unchanged (an input's array is never written). -/
theorem run_named : θ_run defs (onTc (τ := τ) (main (F := F))) ⟨m, fun _ => 0, ρ⟩ (fun r => ∀ c : Dev nD,
      r.2.mem ((c.tc : Thread nD τ).loc main_v0) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h c 7,
      (h c 0).trans ((dats m 0 c).arrAt_in 0 rfl _),
      (h c 1).trans ((dats m 0 c).arrAt_in 1 rfl _),
      (h c 6).trans ((dats m 0 c).arrAt_in 6 rfl _)⟩) (run_main m ρ)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.Kernel.Hand

end
-- ==== Proof.KI.Setting.lean ====
/-
  The graph-convolution kernel out = A · (x · W), idealized: the setting its run is stated in.

  The kernel walks a grid of 25 points. Point t sees the whole of x and W (fetched once, at the first point), five
  consecutive 80-row blocks of A — rows 400 t + 80 s, s = 0 … 4, each through a window of its own on the ONE array A —
  and a 400-row block of the result, rows 400 t … 400 t + 399. A scratch array h, kept between points, is filled with
  x · W at the first point and only read afterwards. This file names the arrays as the region finds them, each window's
  block at a point, the condition that singles out the first point, and the memory references the body is called with.
-/
import proofs.«170854_g16054587753042_cont_sun_c4_396_23_alg».proof.Proof.Gen.KernelIdeal.Launch
import proofs.«170854_g16054587753042_cont_sun_c4_396_23_alg».proof.Proof.Gen.KernelIdeal.Skeleton
import proofs.«170854_g16054587753042_cont_sun_c4_396_23_alg».proof.Proof.Gen.KernelIdeal.Points
import Idealize.ShloMosaic.Lib.Pipeline.FrameBody
import Idealize.ShloMosaic.Lib.Pipeline.Launch
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program has no host operation before the region: the region finds every array as the launch memory has it. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's one branch: taken when the grid coordinate is zero. -/
abbrev firstPt (i : grid0.Coords) : Prop :=
  (Scalar.cmpi .ne (Scalar.extui (Scalar.cmpi .eq (BitVec.ofNat 32 (i 0).val) 0#32)) 0#32) = 1#1

/-- It is taken at the first point and at no other. -/
theorem firstPt_iff : ∀ t : Fin cfg0.N, firstPt (grid0.coords t) ↔ t.val = 0 :=
  (by decide +kernel : ∀ t : Fin grid0.N, firstPt (grid0.coords t) ↔ t.val = 0)

/-- The memory reference each window hands the body at point `t`, and that it is a whole buffer. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S80x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S80x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S80x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S80x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S80x10000 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S400x128 .f32 := win0_7.stage (cfg0.slots t 7)
abbrev hs7 (t : Fin cfg0.N) : (ms7 t).IsWhole := hstage0_7 ((cfg0.slots t 7).cast nbuf0_7)
/-- The scratch array h: a whole buffer of the kernel's own. -/
abbrev scM : Memref sig .tc .vmem S10000x128 .f32 := Memref.whole cc0_scratch0

/-- One staging buffer of the result window, and the scratch, as views: what they hold is stated through them. -/
abbrev VO : View sig .tc .vmem S400x128 .f32 := (Memref.whole cc0_stg7_0 : Memref sig .tc .vmem S400x128 .f32).view
abbrev VS : View sig .tc .vmem S10000x128 .f32 := (scM : Memref sig .tc .vmem S10000x128 .f32).view

end Cert.KernelIdeal.Hand

end
-- ==== Proof.KI.RunLater.lean ====
/-
  The body at a point after the first. The branch is not taken: the body reads the five blocks of A and the scratch h,
  and stores the five products A_s · h into the five 80-row parts of the result's buffer. The inputs and the scratch are
  handed back as they were; the result's buffer is handed back with those five stores written.
-/
import proofs.«170854_g16054587753042_cont_sun_c4_396_23_alg».proof.Proof.KI.Setting

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The stores a later point leaves in the result's buffer (last first), with the proof that from whole buffers — the
    inputs at `x0 … x6`, the scratch at `xs`, the result's at anything — the body runs to any continuation that holds
    for the inputs and the scratch unchanged and the result's buffer with those stores written. -/
noncomputable def runLater (c : Dev nD) (i : grid0.Coords) (a1 : Memref sig .tc .vmem S10000x128 .f32) (h1 : a1.IsWhole) (a2 : Memref sig .tc .vmem S80x10000 .f32) (h2 : a2.IsWhole) (a3 : Memref sig .tc .vmem S80x10000 .f32) (h3 : a3.IsWhole) (a4 : Memref sig .tc .vmem S80x10000 .f32) (h4 : a4.IsWhole) (a5 : Memref sig .tc .vmem S80x10000 .f32) (h5 : a5.IsWhole) (a6 : Memref sig .tc .vmem S80x10000 .f32) (h6 : a6.IsWhole) (a7 : Memref sig .tc .vmem S128x128 .f32) (h7 : a7.IsWhole) (a8 : Memref sig .tc .vmem S400x128 .f32) (h8 : a8.IsWhole) (a9 : Memref sig .tc .vmem S10000x128 .f32) (h9 : a9.IsWhole) (hc : ¬firstPt i)
    (x0 : Vec F S10000x128 .f32) (x1 : Vec F S80x10000 .f32) (x2 : Vec F S80x10000 .f32) (x3 : Vec F S80x10000 .f32) (x4 : Vec F S80x10000 .f32) (x5 : Vec F S80x10000 .f32) (x6 : Vec F S128x128 .f32) (xs : Vec F S10000x128 .f32) :
    { L : List (View.Piece (Elt F) S400x128 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ d, owns (c : Thread nD τ) a8 fullShare d) ∗ owns (c : Thread nD τ) a9 fullShare xs
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ f, a8.view.loc (c : Thread nD τ) ↦[a8.view.set]{fullShare} a8.view.writes (Elt F) f L) ∗ owns (c : Thread nD τ) a9 fullShare xs) -∗ K ⟨⟩))
          ⊢ wp frame (wpE (defs₀ (F := F)) Variants.none c none) E (cc0_body i a1 h1 a2 h2 a3 h3 a4 h4 a5 h5 a6 h6 a7 h7 a8 h8 a9 h9) K } := by
  refine ⟨?_, fun E K => ?run⟩
  case run =>
    simp only [cc0_body_eq_skeleton]; unfold cc0_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := h1.eq_unread hf0; obtain rfl := h2.eq_unread hf1; obtain rfl := h3.eq_unread hf2; obtain rfl := h4.eq_unread hf3
    obtain rfl := h5.eq_unread hf4; obtain rfl := h6.eq_unread hf5; obtain rfl := h7.eq_unread hf6; obtain rfl := h9.eq_unread hfs
    sl_exec (disch := exact hc)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    isplitl [H7]; · iexists _; iexact H7
    iexists _; isplitr; · ipureintro; exact h9.read_unread _
    iexact HS

end Cert.KernelIdeal.Hand

end
-- ==== Proof.KI.RunFirst.lean ====
/-
  The body at the first point. The branch is taken: the body reads x and W, stores their product x · W over the whole
  scratch h, then proceeds as at every point — reads the five blocks of A and the scratch, and stores the five products
  A_s · h into the five 80-row parts of the result's buffer. The inputs are handed back as they were; the scratch with
  its one store written, the result's buffer with its five.
-/
import proofs.«170854_g16054587753042_cont_sun_c4_396_23_alg».proof.Proof.KI.RunLater

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The stores the first point leaves in the result's buffer and in the scratch (last first), with the proof that from
    whole buffers — the inputs at `x0 … x6`, the scratch and the result's buffer at anything — the body runs to any
    continuation that holds for the inputs unchanged and the two written buffers with those stores written. -/
noncomputable def runFirst (c : Dev nD) (i : grid0.Coords) (a1 : Memref sig .tc .vmem S10000x128 .f32) (h1 : a1.IsWhole) (a2 : Memref sig .tc .vmem S80x10000 .f32) (h2 : a2.IsWhole) (a3 : Memref sig .tc .vmem S80x10000 .f32) (h3 : a3.IsWhole) (a4 : Memref sig .tc .vmem S80x10000 .f32) (h4 : a4.IsWhole) (a5 : Memref sig .tc .vmem S80x10000 .f32) (h5 : a5.IsWhole) (a6 : Memref sig .tc .vmem S80x10000 .f32) (h6 : a6.IsWhole) (a7 : Memref sig .tc .vmem S128x128 .f32) (h7 : a7.IsWhole) (a8 : Memref sig .tc .vmem S400x128 .f32) (h8 : a8.IsWhole) (a9 : Memref sig .tc .vmem S10000x128 .f32) (h9 : a9.IsWhole) (hc : firstPt i)
    (x0 : Vec F S10000x128 .f32) (x1 : Vec F S80x10000 .f32) (x2 : Vec F S80x10000 .f32) (x3 : Vec F S80x10000 .f32) (x4 : Vec F S80x10000 .f32) (x5 : Vec F S80x10000 .f32) (x6 : Vec F S128x128 .f32) :
    Σ' (L : List (View.Piece (Elt F) S400x128 .f32)), { LS : List (View.Piece (Elt F) S10000x128 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ d, owns (c : Thread nD τ) a8 fullShare d) ∗ (∃ d, owns (c : Thread nD τ) a9 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ f, a8.view.loc (c : Thread nD τ) ↦[a8.view.set]{fullShare} a8.view.writes (Elt F) f L) ∗ (∃ f, a9.view.loc (c : Thread nD τ) ↦[a9.view.set]{fullShare} a9.view.writes (Elt F) f LS)) -∗ K ⟨⟩))
          ⊢ wp frame (wpE (defs₀ (F := F)) Variants.none c none) E (cc0_body i a1 h1 a2 h2 a3 h3 a4 h4 a5 h5 a6 h6 a7 h7 a8 h8 a9 h9) K } := by
  refine ⟨?_, ?_, fun E K => ?run⟩
  case run =>
    simp only [cc0_body_eq_skeleton]; unfold cc0_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds, %fs, -, HS⟩, Hk⟩
    obtain rfl := h1.eq_unread hf0; obtain rfl := h2.eq_unread hf1; obtain rfl := h3.eq_unread hf2; obtain rfl := h4.eq_unread hf3
    obtain rfl := h5.eq_unread hf4; obtain rfl := h6.eq_unread hf5; obtain rfl := h7.eq_unread hf6
    sl_exec (disch := exact hc)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    isplitl [H7]; · iexists _; iexact H7
    iexists _; iexact HS

end Cert.KernelIdeal.Hand

end
-- ==== Proof.KI.Data.lean ====
/-
  The proof data of the graph-convolution kernel, and the body's obligation at every point.

  After the body at point t each input window's buffer still holds the window's block — all of x, all of W, and the
  five 80-row blocks of A at rows 400 t + 80 s —, and the result window's buffer holds what the point's five stores
  left: rows 80 s … 80 s + 79 of it are A_s · h. The scratch h holds anything before the first point and x · W, as the
  first point stored it, ever after: that is the invariant carried from point to point. The one array A is read by
  five windows; each holds it at a fifth share (the halves of halves of the full share), which is all a read needs.
-/
import proofs.«170854_g16054587753042_cont_sun_c4_396_23_alg».proof.Proof.KI.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's first point. -/
def t₀ : Fin cfg0.N := ⟨0, by decide⟩

/-! ## What the stores leave -/

/-- The five stores of a later point tile the result's 400 × 128 buffer in 80 × 128 blocks. -/
theorem coverLater (c : Dev nD) (i : grid0.Coords) (a1 : Memref sig .tc .vmem S10000x128 .f32) (h1 : a1.IsWhole) (a2 : Memref sig .tc .vmem S80x10000 .f32) (h2 : a2.IsWhole) (a3 : Memref sig .tc .vmem S80x10000 .f32) (h3 : a3.IsWhole) (a4 : Memref sig .tc .vmem S80x10000 .f32) (h4 : a4.IsWhole) (a5 : Memref sig .tc .vmem S80x10000 .f32) (h5 : a5.IsWhole) (a6 : Memref sig .tc .vmem S80x10000 .f32) (h6 : a6.IsWhole) (a7 : Memref sig .tc .vmem S128x128 .f32) (h7 : a7.IsWhole) (a8 : Memref sig .tc .vmem S400x128 .f32) (h8 : a8.IsWhole) (a9 : Memref sig .tc .vmem S10000x128 .f32) (h9 : a9.IsWhole) (hc : ¬firstPt i)
    (x0 : Vec F S10000x128 .f32) (x1 : Vec F S80x10000 .f32) (x2 : Vec F S80x10000 .f32) (x3 : Vec F S80x10000 .f32) (x4 : Vec F S80x10000 .f32) (x5 : Vec F S80x10000 .f32) (x6 : Vec F S128x128 .f32) (xs : Vec F S10000x128 .f32) (y : S400x128.Idx) :
    ∃ pc ∈ (runLater c i a1 h1 a2 h2 a3 h3 a4 h4 a5 h5 a6 h6 a7 h7 a8 h8 a9 h9 hc x0 x1 x2 x3 x4 x5 x6 xs).1, y ∈ pc.1.set :=
  View.cover_of_tiledL (runLater c i a1 h1 a2 h2 a3 h3 a4 h4 a5 h5 a6 h6 a7 h7 a8 h8 a9 h9 hc x0 x1 x2 x3 x4 x5 x6 xs).1 S80x128.size (by sl_kernel_rfl) y

/-- What a later point leaves in the result's buffer: its stores read back. -/
def outLater (c : Dev nD) (i : grid0.Coords) (a1 : Memref sig .tc .vmem S10000x128 .f32) (h1 : a1.IsWhole) (a2 : Memref sig .tc .vmem S80x10000 .f32) (h2 : a2.IsWhole) (a3 : Memref sig .tc .vmem S80x10000 .f32) (h3 : a3.IsWhole) (a4 : Memref sig .tc .vmem S80x10000 .f32) (h4 : a4.IsWhole) (a5 : Memref sig .tc .vmem S80x10000 .f32) (h5 : a5.IsWhole) (a6 : Memref sig .tc .vmem S80x10000 .f32) (h6 : a6.IsWhole) (a7 : Memref sig .tc .vmem S128x128 .f32) (h7 : a7.IsWhole) (a8 : Memref sig .tc .vmem S400x128 .f32) (h8 : a8.IsWhole) (a9 : Memref sig .tc .vmem S10000x128 .f32) (h9 : a9.IsWhole) (hc : ¬firstPt i)
    (x0 : Vec F S10000x128 .f32) (x1 : Vec F S80x10000 .f32) (x2 : Vec F S80x10000 .f32) (x3 : Vec F S80x10000 .f32) (x4 : Vec F S80x10000 .f32) (x5 : Vec F S80x10000 .f32) (x6 : Vec F S128x128 .f32) (xs : Vec F S10000x128 .f32) : Vec F S400x128 .f32 :=
  VO.read (Elt F) (VO.writes (Elt F) VO.junk (runLater c i a1 h1 a2 h2 a3 h3 a4 h4 a5 h5 a6 h6 a7 h7 a8 h8 a9 h9 hc x0 x1 x2 x3 x4 x5 x6 xs).1)

/-- The five stores of the first point tile the result's buffer likewise. -/
theorem coverFirst (c : Dev nD) (i : grid0.Coords) (a1 : Memref sig .tc .vmem S10000x128 .f32) (h1 : a1.IsWhole) (a2 : Memref sig .tc .vmem S80x10000 .f32) (h2 : a2.IsWhole) (a3 : Memref sig .tc .vmem S80x10000 .f32) (h3 : a3.IsWhole) (a4 : Memref sig .tc .vmem S80x10000 .f32) (h4 : a4.IsWhole) (a5 : Memref sig .tc .vmem S80x10000 .f32) (h5 : a5.IsWhole) (a6 : Memref sig .tc .vmem S80x10000 .f32) (h6 : a6.IsWhole) (a7 : Memref sig .tc .vmem S128x128 .f32) (h7 : a7.IsWhole) (a8 : Memref sig .tc .vmem S400x128 .f32) (h8 : a8.IsWhole) (a9 : Memref sig .tc .vmem S10000x128 .f32) (h9 : a9.IsWhole) (hc : firstPt i)
    (x0 : Vec F S10000x128 .f32) (x1 : Vec F S80x10000 .f32) (x2 : Vec F S80x10000 .f32) (x3 : Vec F S80x10000 .f32) (x4 : Vec F S80x10000 .f32) (x5 : Vec F S80x10000 .f32) (x6 : Vec F S128x128 .f32) (y : S400x128.Idx) :
    ∃ pc ∈ (runFirst c i a1 h1 a2 h2 a3 h3 a4 h4 a5 h5 a6 h6 a7 h7 a8 h8 a9 h9 hc x0 x1 x2 x3 x4 x5 x6).1, y ∈ pc.1.set :=
  View.cover_of_tiledL (runFirst c i a1 h1 a2 h2 a3 h3 a4 h4 a5 h5 a6 h6 a7 h7 a8 h8 a9 h9 hc x0 x1 x2 x3 x4 x5 x6).1 S80x128.size (by sl_kernel_rfl) y

/-- What the first point leaves in the result's buffer. -/
def outFirst (c : Dev nD) (i : grid0.Coords) (a1 : Memref sig .tc .vmem S10000x128 .f32) (h1 : a1.IsWhole) (a2 : Memref sig .tc .vmem S80x10000 .f32) (h2 : a2.IsWhole) (a3 : Memref sig .tc .vmem S80x10000 .f32) (h3 : a3.IsWhole) (a4 : Memref sig .tc .vmem S80x10000 .f32) (h4 : a4.IsWhole) (a5 : Memref sig .tc .vmem S80x10000 .f32) (h5 : a5.IsWhole) (a6 : Memref sig .tc .vmem S80x10000 .f32) (h6 : a6.IsWhole) (a7 : Memref sig .tc .vmem S128x128 .f32) (h7 : a7.IsWhole) (a8 : Memref sig .tc .vmem S400x128 .f32) (h8 : a8.IsWhole) (a9 : Memref sig .tc .vmem S10000x128 .f32) (h9 : a9.IsWhole) (hc : firstPt i)
    (x0 : Vec F S10000x128 .f32) (x1 : Vec F S80x10000 .f32) (x2 : Vec F S80x10000 .f32) (x3 : Vec F S80x10000 .f32) (x4 : Vec F S80x10000 .f32) (x5 : Vec F S80x10000 .f32) (x6 : Vec F S128x128 .f32) : Vec F S400x128 .f32 :=
  VO.read (Elt F) (VO.writes (Elt F) VO.junk (runFirst c i a1 h1 a2 h2 a3 h3 a4 h4 a5 h5 a6 h6 a7 h7 a8 h8 a9 h9 hc x0 x1 x2 x3 x4 x5 x6).1)

/-- The first point's one store into the scratch covers it. -/
theorem coverScratch (c : Dev nD) (i : grid0.Coords) (a1 : Memref sig .tc .vmem S10000x128 .f32) (h1 : a1.IsWhole) (a2 : Memref sig .tc .vmem S80x10000 .f32) (h2 : a2.IsWhole) (a3 : Memref sig .tc .vmem S80x10000 .f32) (h3 : a3.IsWhole) (a4 : Memref sig .tc .vmem S80x10000 .f32) (h4 : a4.IsWhole) (a5 : Memref sig .tc .vmem S80x10000 .f32) (h5 : a5.IsWhole) (a6 : Memref sig .tc .vmem S80x10000 .f32) (h6 : a6.IsWhole) (a7 : Memref sig .tc .vmem S128x128 .f32) (h7 : a7.IsWhole) (a8 : Memref sig .tc .vmem S400x128 .f32) (h8 : a8.IsWhole) (a9 : Memref sig .tc .vmem S10000x128 .f32) (h9 : a9.IsWhole) (hc : firstPt i)
    (x0 : Vec F S10000x128 .f32) (x1 : Vec F S80x10000 .f32) (x2 : Vec F S80x10000 .f32) (x3 : Vec F S80x10000 .f32) (x4 : Vec F S80x10000 .f32) (x5 : Vec F S80x10000 .f32) (x6 : Vec F S128x128 .f32) (y : S10000x128.Idx) :
    ∃ pc ∈ (runFirst c i a1 h1 a2 h2 a3 h3 a4 h4 a5 h5 a6 h6 a7 h7 a8 h8 a9 h9 hc x0 x1 x2 x3 x4 x5 x6).2.1, y ∈ pc.1.set :=
  View.cover_of_tiledL (runFirst c i a1 h1 a2 h2 a3 h3 a4 h4 a5 h5 a6 h6 a7 h7 a8 h8 a9 h9 hc x0 x1 x2 x3 x4 x5 x6).2.1 S10000x128.size (by sl_kernel_rfl) y

/-- What the first point leaves in the scratch. -/
def featFirst (c : Dev nD) (i : grid0.Coords) (a1 : Memref sig .tc .vmem S10000x128 .f32) (h1 : a1.IsWhole) (a2 : Memref sig .tc .vmem S80x10000 .f32) (h2 : a2.IsWhole) (a3 : Memref sig .tc .vmem S80x10000 .f32) (h3 : a3.IsWhole) (a4 : Memref sig .tc .vmem S80x10000 .f32) (h4 : a4.IsWhole) (a5 : Memref sig .tc .vmem S80x10000 .f32) (h5 : a5.IsWhole) (a6 : Memref sig .tc .vmem S80x10000 .f32) (h6 : a6.IsWhole) (a7 : Memref sig .tc .vmem S128x128 .f32) (h7 : a7.IsWhole) (a8 : Memref sig .tc .vmem S400x128 .f32) (h8 : a8.IsWhole) (a9 : Memref sig .tc .vmem S10000x128 .f32) (h9 : a9.IsWhole) (hc : firstPt i)
    (x0 : Vec F S10000x128 .f32) (x1 : Vec F S80x10000 .f32) (x2 : Vec F S80x10000 .f32) (x3 : Vec F S80x10000 .f32) (x4 : Vec F S80x10000 .f32) (x5 : Vec F S80x10000 .f32) (x6 : Vec F S128x128 .f32) : Vec F S10000x128 .f32 :=
  VS.read (Elt F) (VS.writes (Elt F) VS.junk (runFirst c i a1 h1 a2 h2 a3 h3 a4 h4 a5 h5 a6 h6 a7 h7 a8 h8 a9 h9 hc x0 x1 x2 x3 x4 x5 x6).2.1)

/-! ## Point by point -/

/-- The scratch h after the first point (and at every later one, which only reads it). -/
def H (c : Dev nD) : Vec F S10000x128 .f32 :=
  featFirst c (grid0.coords t₀) (ms0 t₀) (hs0 t₀) (ms1 t₀) (hs1 t₀) (ms2 t₀) (hs2 t₀) (ms3 t₀) (hs3 t₀) (ms4 t₀) (hs4 t₀) (ms5 t₀) (hs5 t₀) (ms6 t₀) (hs6 t₀) (ms7 t₀) (hs7 t₀) scM (Memref.isWhole_whole _) ((firstPt_iff t₀).mpr rfl) (iblk m c 0 t₀) (iblk m c 1 t₀) (iblk m c 2 t₀) (iblk m c 3 t₀) (iblk m c 4 t₀) (iblk m c 5 t₀) (iblk m c 6 t₀)

/-- What the result window's buffer holds after the body at point `t`. -/
def outAt (c : Dev nD) (t : Fin cfg0.N) : Vec F S400x128 .f32 :=
  if h : t.val = 0 then
    outFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((firstPt_iff t).mpr h) (iblk m c 0 t) (iblk m c 1 t) (iblk m c 2 t) (iblk m c 3 t) (iblk m c 4 t) (iblk m c 5 t) (iblk m c 6 t)
  else
    outLater c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h' => h ((firstPt_iff t).mp h')) (iblk m c 0 t) (iblk m c 1 t) (iblk m c 2 t) (iblk m c 3 t) (iblk m c 4 t) (iblk m c 5 t) (iblk m c 6 t) (H m c)

theorem outAt_first (c : Dev nD) (t : Fin cfg0.N) (h : t.val = 0) :
    outAt m c t = outFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((firstPt_iff t).mpr h) (iblk m c 0 t) (iblk m c 1 t) (iblk m c 2 t) (iblk m c 3 t) (iblk m c 4 t) (iblk m c 5 t) (iblk m c 6 t) := dif_pos h

theorem outAt_later (c : Dev nD) (t : Fin cfg0.N) (h : ¬t.val = 0) :
    outAt m c t = outLater c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h' => h ((firstPt_iff t).mp h')) (iblk m c 0 t) (iblk m c 1 t) (iblk m c 2 t) (iblk m c 3 t) (iblk m c 4 t) (iblk m c 5 t) (iblk m c 6 t) (H m c) := dif_neg h

/-- The invariant before position `n`: the scratch at anything before the first point, at h afterwards. -/
def PhiS (c : Dev nD) : ℕ → sProp 𝕄
  | 0 => iprop(∃ d, owns (c : Thread nD τ) scM fullShare d)
  | _ + 1 => owns (c : Thread nD τ) scM fullShare (H m c)

theorem PhiS_zero (c : Dev nD) (n : ℕ) (hz : n = 0) : PhiS m c n = iprop(∃ d, owns (c : Thread nD τ) scM fullShare d) := by
  subst hz; rfl

theorem PhiS_pos (c : Dev nD) (n : ℕ) (hz : n ≠ 0) : PhiS m c n = owns (c : Thread nD τ) scM fullShare (H m c) := by
  cases n with
  | zero => exact absurd rfl hz
  | succ n => rfl

/-! ## The proof data -/

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val
  q w := match w with
    | ⟨0, _⟩ => fullShare
    | ⟨1, _⟩ => fullShare.left
    | ⟨2, _⟩ => fullShare.right.left
    | ⟨3, _⟩ => fullShare.right.right.left
    | ⟨4, _⟩ => fullShare.right.right.right.left
    | ⟨5, _⟩ => fullShare.right.right.right.right
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t := by dsimp only [dats]

/-- Each input window's buffer holds the window's block at every point, fetched there or not: where it is not
    fetched its block index has not moved, and the body left the block in place. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rfl) t d).trans (by unfold Dat.fetched Dat.blockOf iblk; rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rfl) t d).trans (by unfold Dat.fetched Dat.blockOf iblk; rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rfl) t d).trans (by unfold Dat.fetched Dat.blockOf iblk; rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rfl) t d).trans (by unfold Dat.fetched Dat.blockOf iblk; rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rfl) t d).trans (by unfold Dat.fetched Dat.blockOf iblk; rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rfl) t d).trans (by unfold Dat.fetched Dat.blockOf iblk; rfl)
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rfl) t d).trans (by unfold Dat.fetched Dat.blockOf iblk; rfl)

end Cert.KernelIdeal.Hand

end
-- ==== Proof.KI.Pieces.lean ====
/-
  What the body's stores leave, in closed form over the payload names.

  At every point the result window's 400 × 128 buffer is written by five stores, one per 80-row part: part s receives the
  product of the s-th block of A with the scratch h. At the first point the scratch itself was just stored whole with the
  product of x and W, and the five products read that. So the buffer after a point is the canon of five tiles, the same
  five at every point but for what h is; and the scratch after the first point is the product of x and W.
-/
import proofs.«170854_g16054587753042_cont_sun_c4_396_23_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-- The five tiles of the result's buffer (last store first): rows 80 s … 80 s + 79 hold the product of the s-th block of
    A and h. -/
def tiles (x1 x2 x3 x4 x5 : Vec F S80x10000 .f32) (h : Vec F S10000x128 .f32) : List (View.Piece (Elt F) S400x128 .f32) :=
  [⟨Rect.unit (s := S400x128) ![320, 0] S80x128.size inb_S400x128_S80x128_320_0, k0_pay1 x5 h⟩,
   ⟨Rect.unit (s := S400x128) ![240, 0] S80x128.size inb_S400x128_S80x128_240_0, k0_pay6 x4 h⟩,
   ⟨Rect.unit (s := S400x128) ![160, 0] S80x128.size inb_S400x128_S80x128_160_0, k0_pay5 x3 h⟩,
   ⟨Rect.unit (s := S400x128) ![80, 0] S80x128.size inb_S400x128_S80x128_80_0, k0_pay4 x2 h⟩,
   ⟨Rect.unit (s := S400x128) ![0, 0] S80x128.size inb_S400x128_S80x128_0_0, k0_pay3 x1 h⟩]

/-- The scratch after the first point is the product of x and W. -/
theorem featFirst_eq (c : Dev nD) (i : grid0.Coords) (a1 : Memref sig .tc .vmem S10000x128 .f32) (h1 : a1.IsWhole) (a2 : Memref sig .tc .vmem S80x10000 .f32) (h2 : a2.IsWhole) (a3 : Memref sig .tc .vmem S80x10000 .f32) (h3 : a3.IsWhole) (a4 : Memref sig .tc .vmem S80x10000 .f32) (h4 : a4.IsWhole) (a5 : Memref sig .tc .vmem S80x10000 .f32) (h5 : a5.IsWhole) (a6 : Memref sig .tc .vmem S80x10000 .f32) (h6 : a6.IsWhole) (a7 : Memref sig .tc .vmem S128x128 .f32) (h7 : a7.IsWhole) (a8 : Memref sig .tc .vmem S400x128 .f32) (h8 : a8.IsWhole) (a9 : Memref sig .tc .vmem S10000x128 .f32) (h9 : a9.IsWhole) (hc : firstPt i)
    (x0 : Vec F S10000x128 .f32) (x1 : Vec F S80x10000 .f32) (x2 : Vec F S80x10000 .f32) (x3 : Vec F S80x10000 .f32) (x4 : Vec F S80x10000 .f32) (x5 : Vec F S80x10000 .f32) (x6 : Vec F S128x128 .f32) :
    featFirst c i a1 h1 a2 h2 a3 h3 a4 h4 a5 h5 a6 h6 a7 h7 a8 h8 a9 h9 hc x0 x1 x2 x3 x4 x5 x6 = k0_pay2 x0 x6 := by
  unfold featFirst
  rw [View.read_writes_eq_canon _ _ _ (coverScratch c i a1 h1 a2 h2 a3 h3 a4 h4 a5 h5 a6 h6 a7 h7 a8 h8 a9 h9 hc x0 x1 x2 x3 x4 x5 x6)]
  unfold runFirst
  dsimp only
  sl_unfold_words
  simp only [View.canon_unit_zero (S := S10000x128) hz2, View.readAt_eq_ld, h1.read_unread, h7.read_unread,
    View.ld_unit_zero (S := S10000x128) hz2, View.ld_unit_zero (S := S128x128) hz2]

/-- The result's buffer after a later point: the five tiles over the scratch as found. -/
theorem outLater_eq (c : Dev nD) (i : grid0.Coords) (a1 : Memref sig .tc .vmem S10000x128 .f32) (h1 : a1.IsWhole) (a2 : Memref sig .tc .vmem S80x10000 .f32) (h2 : a2.IsWhole) (a3 : Memref sig .tc .vmem S80x10000 .f32) (h3 : a3.IsWhole) (a4 : Memref sig .tc .vmem S80x10000 .f32) (h4 : a4.IsWhole) (a5 : Memref sig .tc .vmem S80x10000 .f32) (h5 : a5.IsWhole) (a6 : Memref sig .tc .vmem S80x10000 .f32) (h6 : a6.IsWhole) (a7 : Memref sig .tc .vmem S128x128 .f32) (h7 : a7.IsWhole) (a8 : Memref sig .tc .vmem S400x128 .f32) (h8 : a8.IsWhole) (a9 : Memref sig .tc .vmem S10000x128 .f32) (h9 : a9.IsWhole) (hc : ¬firstPt i)
    (x0 : Vec F S10000x128 .f32) (x1 : Vec F S80x10000 .f32) (x2 : Vec F S80x10000 .f32) (x3 : Vec F S80x10000 .f32) (x4 : Vec F S80x10000 .f32) (x5 : Vec F S80x10000 .f32) (x6 : Vec F S128x128 .f32) (xs : Vec F S10000x128 .f32) :
    outLater c i a1 h1 a2 h2 a3 h3 a4 h4 a5 h5 a6 h6 a7 h7 a8 h8 a9 h9 hc x0 x1 x2 x3 x4 x5 x6 xs = View.canon (tiles x1 x2 x3 x4 x5 xs) := by
  unfold outLater
  rw [View.read_writes_eq_canon _ _ _ (coverLater c i a1 h1 a2 h2 a3 h3 a4 h4 a5 h5 a6 h6 a7 h7 a8 h8 a9 h9 hc x0 x1 x2 x3 x4 x5 x6 xs)]
  unfold runLater
  dsimp only
  sl_unfold_words
  simp only [View.readAt_eq_ld, h2.read_unread, h3.read_unread, h4.read_unread, h5.read_unread, h6.read_unread, h9.read_unread,
    View.ld_unit_zero (S := S80x10000) hz2, View.ld_unit_zero (S := S10000x128) hz2]
  rfl

/-- The result's buffer after the first point: the five tiles over the product of x and W just stored. -/
theorem outFirst_eq (c : Dev nD) (i : grid0.Coords) (a1 : Memref sig .tc .vmem S10000x128 .f32) (h1 : a1.IsWhole) (a2 : Memref sig .tc .vmem S80x10000 .f32) (h2 : a2.IsWhole) (a3 : Memref sig .tc .vmem S80x10000 .f32) (h3 : a3.IsWhole) (a4 : Memref sig .tc .vmem S80x10000 .f32) (h4 : a4.IsWhole) (a5 : Memref sig .tc .vmem S80x10000 .f32) (h5 : a5.IsWhole) (a6 : Memref sig .tc .vmem S80x10000 .f32) (h6 : a6.IsWhole) (a7 : Memref sig .tc .vmem S128x128 .f32) (h7 : a7.IsWhole) (a8 : Memref sig .tc .vmem S400x128 .f32) (h8 : a8.IsWhole) (a9 : Memref sig .tc .vmem S10000x128 .f32) (h9 : a9.IsWhole) (hc : firstPt i)
    (x0 : Vec F S10000x128 .f32) (x1 : Vec F S80x10000 .f32) (x2 : Vec F S80x10000 .f32) (x3 : Vec F S80x10000 .f32) (x4 : Vec F S80x10000 .f32) (x5 : Vec F S80x10000 .f32) (x6 : Vec F S128x128 .f32) :
    outFirst c i a1 h1 a2 h2 a3 h3 a4 h4 a5 h5 a6 h6 a7 h7 a8 h8 a9 h9 hc x0 x1 x2 x3 x4 x5 x6 = View.canon (tiles x1 x2 x3 x4 x5 (k0_pay2 x0 x6)) := by
  unfold outFirst
  rw [View.read_writes_eq_canon _ _ _ (coverFirst c i a1 h1 a2 h2 a3 h3 a4 h4 a5 h5 a6 h6 a7 h7 a8 h8 a9 h9 hc x0 x1 x2 x3 x4 x5 x6)]
  unfold runFirst
  dsimp only
  sl_unfold_words
  simp only [View.readAt_eq_ld, h1.read_unread, h2.read_unread, h3.read_unread, h4.read_unread, h5.read_unread, h6.read_unread, h7.read_unread,
    View.ld_unit_zero (S := S80x10000) hz2, View.ld_unit_zero (S := S10000x128) hz2, View.ld_unit_zero (S := S128x128) hz2,
    View.readCov_unit_zero (S := S10000x128) _ hz2]
  rfl

end Cert.KernelIdeal.Hand

end
-- ==== Proof.KI.Body.lean ====
/-
  The body's obligation. At a point the pipeline hands the body each window's current buffer — every input's at the
  window's block, the result's at anything — and the invariant: the scratch at anything (first point) or at h (later).
  The body runs (the first-point run or the later-point run, by the branch's condition) and hands everything back:
  inputs unchanged, the result's buffer at the point's stores read back, the scratch at h.
-/
import proofs.«170854_g16054587753042_cont_sun_c4_396_23_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No window is ever idle: each buffer is handed back at what the body left in it. -/
theorem leaves0 (c : Dev nD) (t : Fin cfg0.N) :
    (dats m 0 c).leavesExact 0 t = owns (c : Thread nD τ) (ms0 t) fullShare ((dats m 0 c).after 0 t) := rfl
theorem leaves1 (c : Dev nD) (t : Fin cfg0.N) :
    (dats m 0 c).leavesExact 1 t = owns (c : Thread nD τ) (ms1 t) fullShare ((dats m 0 c).after 1 t) := rfl
theorem leaves2 (c : Dev nD) (t : Fin cfg0.N) :
    (dats m 0 c).leavesExact 2 t = owns (c : Thread nD τ) (ms2 t) fullShare ((dats m 0 c).after 2 t) := rfl
theorem leaves3 (c : Dev nD) (t : Fin cfg0.N) :
    (dats m 0 c).leavesExact 3 t = owns (c : Thread nD τ) (ms3 t) fullShare ((dats m 0 c).after 3 t) := rfl
theorem leaves4 (c : Dev nD) (t : Fin cfg0.N) :
    (dats m 0 c).leavesExact 4 t = owns (c : Thread nD τ) (ms4 t) fullShare ((dats m 0 c).after 4 t) := rfl
theorem leaves5 (c : Dev nD) (t : Fin cfg0.N) :
    (dats m 0 c).leavesExact 5 t = owns (c : Thread nD τ) (ms5 t) fullShare ((dats m 0 c).after 5 t) := rfl
theorem leaves6 (c : Dev nD) (t : Fin cfg0.N) :
    (dats m 0 c).leavesExact 6 t = owns (c : Thread nD τ) (ms6 t) fullShare ((dats m 0 c).after 6 t) := rfl
theorem leaves7 (c : Dev nD) (t : Fin cfg0.N) :
    (dats m 0 c).leavesExact 7 t = owns (c : Thread nD τ) (ms7 t) fullShare ((dats m 0 c).after 7 t) := rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = owns (c : Thread nD τ) scM fullShare (H m c) from rfl]
  rw [leaves0, leaves1, leaves2, leaves3, leaves4, leaves5, leaves6, leaves7,
    after0, after1, after2, after3, after4, after5, after6, after7, Phi_castSucc]
  by_cases hz : t.val = 0
  · rw [outAt_first m c t hz, PhiS_zero m c _ hz]
    unfold outFirst
    obtain rfl : t = t₀ := Fin.ext hz
    unfold H featFirst
    iintro ⟨⟨%ds, HS⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid0.coords t₀) _ _ _ _ _ _ _ _ _ _ _ _ _ _ _ _ _ _ ((firstPt_iff t₀).mpr rfl) (iblk m c 0 t₀) (iblk m c 1 t₀) (iblk m c 2 t₀) (iblk m c 3 t₀) (iblk m c 4 t₀) (iblk m c 5 t₀) (iblk m c 6 t₀)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexists _; iexact HS
    iintro ⟨H0, H1, H2, H3, H4, H5, H6, ⟨%e7, H7⟩, ⟨%es, HS⟩⟩
    isplitl [HS]
    · unfold owns; iexists _; isplitr
      swap; · iexact HS
      ipureintro; exact View.read_writes_of_cover _ _ _ _ _ (coverScratch c _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverFirst c _ _ _ _ _ _ _ _ _ _ _ _ _ _ _ _ _ _ _ _ _ _ _ _ _ _ _)
  · rw [outAt_later m c t hz, PhiS_pos m c _ hz]
    unfold outLater
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLater c (grid0.coords t) _ _ _ _ _ _ _ _ _ _ _ _ _ _ _ _ _ _ (fun h' => hz ((firstPt_iff t).mp h')) (iblk m c 0 t) (iblk m c 1 t) (iblk m c 2 t) (iblk m c 3 t) (iblk m c 4 t) (iblk m c 5 t) (iblk m c 6 t) (H m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e7, H7⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverLater c _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The launch of the graph-convolution kernel and its frame.

  The region is handed the buffers behind its windows' arrays, each whole: x, A, W and the result. The one array A is
  read through five windows, so its full share is dealt among them — a half, a quarter, an eighth and two sixteenths —;
  every other array goes whole to its one window. The scratch h is the only scoped buffer that is no staging buffer:
  it is the invariant before the first point (at anything) and after the last (at x · W, then forgotten). From the
  body's obligation the pipeline library then gives the run: every weakly fair execution terminates without a fault,
  and each window's array ends at what the library computes from the proof data — an input at its entry contents,
  the result at its entry contents overwritten block by block by what each point left.
-/
import proofs.«170854_g16054587753042_cont_sun_c4_396_23_alg».proof.Proof.KI.Body
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: every staging cell's owner at round 0 and a duty token for every transfer the pipeline issues. -/
def u₀ : UR sig nD τ := initOf (Pipeline.cells cfgs cellOf_inj) (Pipeline.launchToks cfgs cellOf_inj)

/-- A chain of four, spelled out. -/
theorem bigSepL_four {M : Type _} [URA M] {I : Type _} (a b c d : I) (Φ : I → sProp M) :
    bigSepL [a, b, c, d] Φ = iprop(Φ a ∗ Φ b ∗ Φ c ∗ Φ d) := rfl

/-- A window's array is a whole buffer: held through the window at a share, it is the buffer held at that share. -/
theorem arr_pt (c : Dev nD) (w : Fin cfg0.W) (f : Buf (Elt F) ((cfg0.win w).arr.view.loc (c : Thread nD τ))) :
    ((cfg0.win w).arr.view.loc (c : Thread nD τ) ↦[(cfg0.win w).arr.view.set]{(dats m 0 c).share w} f : sProp 𝕄)
      = (((c : Thread nD τ).loc (Pipeline.arrRef spec0 w)) ↦{(dats m 0 c).share w} f) := by
  rw [(arr_whole0 w).set_eq_univ]

/-- The buffers behind the arrays, each whole at the full share, make the windows' arrays at their shares: A's full
    share is split in two four times, a part to each of its five windows. -/
theorem hsplit (c : Dev nD) : Pipeline.arrBufs spec0 c (V m c) ⊢ (dats m 0 c).arrays ((dats m 0 c).arrAt · 0) := by
  unfold Pipeline.arrBufs Dat.arrays
  rw [bigSep_eq_bigSepL_of_eq [main_arg0, main_arg1, main_arg2, main_v0] (by decide) (by decide),
    bigSep_congr (fun w _ => arr_pt m c w ((dats m 0 c).arrAt w 0)), bigSep_W0, bigSepL_four]
  beta_reduce
  iintro ⟨Hx, HA, HW, Ho⟩
  ihave HA' := (pointsTo_share (PosShare.mem_left_op_right fullShare)).1 $$ HA
  icases HA' with ⟨HA1, HA⟩
  ihave HA' := (pointsTo_share (PosShare.mem_left_op_right fullShare.right)).1 $$ HA
  icases HA' with ⟨HA2, HA⟩
  ihave HA' := (pointsTo_share (PosShare.mem_left_op_right fullShare.right.right)).1 $$ HA
  icases HA' with ⟨HA3, HA⟩
  ihave HA' := (pointsTo_share (PosShare.mem_left_op_right fullShare.right.right.right)).1 $$ HA
  icases HA' with ⟨HA4, HA5⟩
  isplitl [Hx]; · iexact Hx
  isplitl [HA1]; · iexact HA1
  isplitl [HA2]; · iexact HA2
  isplitl [HA3]; · iexact HA3
  isplitl [HA4]; · iexact HA4
  isplitl [HA5]; · iexact HA5
  isplitl [HW]; · iexact HW
  iexact Ho

/-- At the compiled mesh, for any float values, from any memory with zero counters: every weakly fair execution of
    @main on the TensorCores terminates, nothing faulting, and every final state has each window's array at what the
    library computes it holds after the last write-back. -/
theorem run_main : θ_run defs (onTc (τ := τ) (main (F := F))) (s₀ m ρ)
    (fun r => ∀ (c : Dev nD) (w : Fin cfg0.W), r.2.mem ((cfg0.win w).arr.view.loc (c : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := u₀) (hu₀ := BI.Entails.refl _)
    (V := V m)
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := fun c => by
      rw [scopedRest0_eq, show (dats m 0 c).Φ 0 = iprop(∃ d, owns (c : Thread nD τ) scM fullShare d) from rfl]
      simp only [scM, owns_whole]
      iintro ⟨-, H⟩; iexact H)
    (hout := fun c => by
      rw [scopedRest0_eq, show (dats m 0 c).Φ (Fin.last cfg0.N) = owns (c : Thread nD τ) scM fullShare (H m c) from rfl]
      simp only [scM, owns_whole]
      iintro H; isplitr; · iempintro
      iexists _; iexact H)
    (QY := fun _ _ => True)
    (hY := fun c s' => by
      iintro ⟨-, -, HSI⟩; imodintro
      isplitr; · ipureintro; trivial
      iexact HSI)
    (hQ := fun _ h c w => (h c).1 w)

/-- The run, read at the program's arrays: the result array at what the proof data computes, the three arguments
    unchanged (an input's array is never written). -/
theorem run_named : θ_run defs (onTc (τ := τ) (main (F := F))) ⟨m, fun _ => 0, ρ⟩ (fun r => ∀ c : Dev nD,
      r.2.mem ((c.tc : Thread nD τ).loc main_v0) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h c 7,
      (h c 0).trans ((dats m 0 c).arrAt_in 0 rfl _),
      (h c 1).trans ((dats m 0 c).arrAt_in 1 rfl _),
      (h c 6).trans ((dats m 0 c).arrAt_in 6 rfl _)⟩) (run_main m ρ)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.KernelIdeal.Hand

end
-- ==== Proof.Spec.lean ====
/-
  The graph-convolution product, entry by entry.

  With node features x (10000 nodes by 128 channels), a square matrix A over the nodes (10000 by 10000) and a
  channel-mixing matrix W (128 by 128), the result is A (x W): first every node's features are mixed,
  (x W) (j, q) = sum over k of x (j, k) W (k, q), and then every node gathers the mixed features of all nodes with the
  weights of its row of A, out (p, q) = sum over j of A (p, j) (x W) (j, q). Over the extended reals every operation is
  exact, so the result is this nested finite sum and nothing else; no law of arithmetic is used in stating it. The
  arrays are functions on literal index sets and an entry is addressed by its two coordinates.
-/
import Idealize.ShloMosaic.PureOps.Ideal
import Idealize.ShloMosaic.Lib.ValueIdx

noncomputable section

namespace Cert.GraphConv

open Idealize.ShloMosaic Idealize.ShloMosaic.ValueIdx

/-- Node features, and the result: 10000 nodes by 128 channels. -/
abbrev SX : Shape := ⟨2, ![10000, 128]⟩
/-- The matrix over the nodes: 10000 by 10000. -/
abbrev SA : Shape := ⟨2, ![10000, 10000]⟩
/-- The channel-mixing matrix: 128 by 128. -/
abbrev SW : Shape := ⟨2, ![128, 128]⟩

/-- The mixed features x W: entry (j, q) is the sum over the 128 channels k of x (j, k) W (k, q). -/
def feat (x : FVec Ideal SX .f32) (W : FVec Ideal SW .f32) : FVec Ideal SX .f32 :=
  fun i => ∑ k : Fin 128, x (ix2 (i 0) k) * W (ix2 k (i 1))

/-- The result A (x W): entry (p, q) is the sum over the 10000 nodes j of A (p, j) times the mixed feature (x W) (j, q). -/
def G (x : FVec Ideal SX .f32) (A : FVec Ideal SA .f32) (W : FVec Ideal SW .f32) : FVec Ideal SX .f32 :=
  fun i => ∑ j : Fin 10000, A (ix2 (i 0) j) * feat x W (ix2 j (i 1))

/-- The mixed features at a pair of coordinates. -/
theorem feat_ix2 (x : FVec Ideal SX .f32) (W : FVec Ideal SW .f32) (j : Fin 10000) (q : Fin 128) :
    feat x W (ix2 j q) = ∑ k : Fin 128, x (ix2 j k) * W (ix2 k q) := rfl

/-- The result at a pair of coordinates. -/
theorem G_ix2 (x : FVec Ideal SX .f32) (A : FVec Ideal SA .f32) (W : FVec Ideal SW .f32) (p : Fin 10000) (q : Fin 128) :
    G x A W (ix2 p q) = ∑ j : Fin 10000, A (ix2 p j) * feat x W (ix2 j q) := rfl

end Cert.GraphConv

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.PayloadAt.lean ====
/-
  The kernel's matrix products, entry by entry.

  The kernel forms two kinds of product, each accumulated into zero. The first is the mixed features x W, a 10000 by 128
  array whose entry (j, q) is the sum over the 128 channels k of x (j, k) W (k, q); a reshape to the same shape changes
  nothing. The second takes an 80-row block a of the matrix over the nodes and an array h of mixed features, and gives
  the 80 by 128 block whose entry (p, q) is the sum over the 10000 nodes j of a (p, j) h (j, q). In both the left
  operand is addressed by (row, contracted) and the right by (contracted, column), which is what the coordinate facts
  below say of the two dimension records.
-/
import proofs.«170854_g16054587753042_cont_sun_c4_396_23_alg».proof.Proof.Gen.KernelIdeal.Skeleton
import proofs.«170854_g16054587753042_cont_sun_c4_396_23_alg».proof.Proof.LibMatmul
import proofs.«170854_g16054587753042_cont_sun_c4_396_23_alg».proof.Proof.Spec
import Idealize.ShloMosaic.Lib.Pipeline.Value

noncomputable section

namespace Cert.GraphConv.Pay

open Idealize.ShloMosaic Idealize.ShloMosaic.ValueIdx Idealize.SL.Sem
open Cert.KernelIdeal

variable [Cert.KernelIdeal.Facts]

/-! ## The product x W: rows by the 128 contracted channels -/

/-- The left operand's row coordinate is the entry's row. -/
theorem lhs_mix_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column coordinate is the contracted one. -/
theorem lhs_mix_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row coordinate is the contracted one. -/
theorem rhs_mix_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column coordinate is the entry's column. -/
theorem rhs_mix_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product x W into the zero accumulator, at entry (j, q): the sum over the channels k of x (j, k) W (k, q). -/
theorem mix_apply (x : FVec Ideal S10000x128 .f32) (W : FVec Ideal S128x128 .f32) (j : Fin 10000) (q : Fin 128) :
    FloatOps.matmul dot_S10000x128_S128x128_S10000x128_1_0_0_1_n_n none x W (constant (F := Ideal) S10000x128 .f32 0x00000000#32) (ix2 j q)
      = ∑ k : Fin 128, x (ix2 j k) * W (ix2 k q) :=
  Cert.LibMatmul.matmul_zero_ix2 dot_S10000x128_S128x128_S10000x128_1_0_0_1_n_n rfl rfl
    lhs_mix_0 lhs_mix_1 rhs_mix_0 rhs_mix_1 none x W j q

/-- The kernel's scratch array is the mixed features x W of the specification, as a whole array. -/
theorem pay2_eq (x : Vec Ideal S10000x128 .f32) (W : Vec Ideal S128x128 .f32) :
    Cert.KernelIdeal.Gen.k0_pay2 (F := Ideal) x W = Cert.GraphConv.feat x W := by
  funext i
  obtain ⟨j, q, rfl⟩ : ∃ (j : Fin 10000) (q : Fin 128), i = ix2 j q := ⟨i 0, i 1, eq_ix2 i⟩
  unfold Cert.KernelIdeal.Gen.k0_pay2
  exact (congrFun (shapeCast_self _ Facts₀.shapeCasts_S10000x128_S10000x128) (ix2 j q)).trans
    ((mix_apply x W j q).trans (Cert.GraphConv.feat_ix2 x W j q).symm)

/-! ## The product of an 80-row block with the mixed features: 80 rows by the 10000 contracted nodes -/

/-- The left operand's row coordinate is the entry's row. -/
theorem lhs_blk_0 (i : S80x128.Idx) (q : dot_S80x10000_S10000x128_S80x128_1_0_0_1_n_n.contr.Idx) :
    (dot_S80x10000_S10000x128_S80x128_1_0_0_1_n_n.lhsIdx i q 0).val = (i 0).val := by
  unfold DotDims.lhsIdx
  rw [dif_neg (show ¬(0 : Fin S80x10000.rank) ∈ dot_S80x10000_S10000x128_S80x128_1_0_0_1_n_n.lhsBatch by decide), dif_pos (show (0 : Fin S80x10000.rank) ∈ dot_S80x10000_S10000x128_S80x128_1_0_0_1_n_n.lhsNonContracting by decide)]
  rfl
/-- The left operand's column coordinate is the contracted one. -/
theorem lhs_blk_1 (i : S80x128.Idx) (q : dot_S80x10000_S10000x128_S80x128_1_0_0_1_n_n.contr.Idx) :
    (dot_S80x10000_S10000x128_S80x128_1_0_0_1_n_n.lhsIdx i q 1).val = (q ⟨0, by decide⟩).val :=
  dot_S80x10000_S10000x128_S80x128_1_0_0_1_n_n.lhsIdx_val_of_single rfl i q
/-- The right operand's row coordinate is the contracted one. -/
theorem rhs_blk_0 (i : S80x128.Idx) (q : dot_S80x10000_S10000x128_S80x128_1_0_0_1_n_n.contr.Idx) :
    (dot_S80x10000_S10000x128_S80x128_1_0_0_1_n_n.rhsIdx i q 0).val = (q ⟨0, by decide⟩).val :=
  dot_S80x10000_S10000x128_S80x128_1_0_0_1_n_n.rhsIdx_val_of_single rfl i q
/-- The right operand's column coordinate is the entry's column. -/
theorem rhs_blk_1 (i : S80x128.Idx) (q : dot_S80x10000_S10000x128_S80x128_1_0_0_1_n_n.contr.Idx) :
    (dot_S80x10000_S10000x128_S80x128_1_0_0_1_n_n.rhsIdx i q 1).val = (i 1).val := by
  unfold DotDims.rhsIdx
  rw [dif_neg (show ¬(1 : Fin S10000x128.rank) ∈ dot_S80x10000_S10000x128_S80x128_1_0_0_1_n_n.rhsBatch by decide), dif_pos (show (1 : Fin S10000x128.rank) ∈ dot_S80x10000_S10000x128_S80x128_1_0_0_1_n_n.rhsNonContracting by decide)]
  rfl

/-- An 80-row block a times an array h into the zero accumulator, at entry (p, q): the sum over the nodes j of
    a (p, j) h (j, q). -/
theorem blk_apply (a : FVec Ideal S80x10000 .f32) (h : FVec Ideal S10000x128 .f32) (p : Fin 80) (q : Fin 128) :
    FloatOps.matmul dot_S80x10000_S10000x128_S80x128_1_0_0_1_n_n none a h (constant (F := Ideal) S80x128 .f32 0x00000000#32) (ix2 p q)
      = ∑ j : Fin 10000, a (ix2 p j) * h (ix2 j q) :=
  Cert.LibMatmul.matmul_zero_ix2 dot_S80x10000_S10000x128_S80x128_1_0_0_1_n_n rfl rfl
    lhs_blk_0 lhs_blk_1 rhs_blk_0 rhs_blk_1 none a h p q

/-- The block stored at rows 320 to 399 of the output window, at entry (p, q). -/
theorem pay1_apply (a : Vec Ideal S80x10000 .f32) (h : Vec Ideal S10000x128 .f32) (p : Fin 80) (q : Fin 128) :
    Cert.KernelIdeal.Gen.k0_pay1 (F := Ideal) a h (ix2 p q) = ∑ j : Fin 10000, a (ix2 p j) * h (ix2 j q) := by
  unfold Cert.KernelIdeal.Gen.k0_pay1
  exact blk_apply a h p q

/-- The block stored at rows 0 to 79 of the output window, at entry (p, q). -/
theorem pay3_apply (a : Vec Ideal S80x10000 .f32) (h : Vec Ideal S10000x128 .f32) (p : Fin 80) (q : Fin 128) :
    Cert.KernelIdeal.Gen.k0_pay3 (F := Ideal) a h (ix2 p q) = ∑ j : Fin 10000, a (ix2 p j) * h (ix2 j q) := by
  unfold Cert.KernelIdeal.Gen.k0_pay3
  exact blk_apply a h p q

/-- The block stored at rows 80 to 159 of the output window, at entry (p, q). -/
theorem pay4_apply (a : Vec Ideal S80x10000 .f32) (h : Vec Ideal S10000x128 .f32) (p : Fin 80) (q : Fin 128) :
    Cert.KernelIdeal.Gen.k0_pay4 (F := Ideal) a h (ix2 p q) = ∑ j : Fin 10000, a (ix2 p j) * h (ix2 j q) := by
  unfold Cert.KernelIdeal.Gen.k0_pay4
  exact blk_apply a h p q

/-- The block stored at rows 160 to 239 of the output window, at entry (p, q). -/
theorem pay5_apply (a : Vec Ideal S80x10000 .f32) (h : Vec Ideal S10000x128 .f32) (p : Fin 80) (q : Fin 128) :
    Cert.KernelIdeal.Gen.k0_pay5 (F := Ideal) a h (ix2 p q) = ∑ j : Fin 10000, a (ix2 p j) * h (ix2 j q) := by
  unfold Cert.KernelIdeal.Gen.k0_pay5
  exact blk_apply a h p q

/-- The block stored at rows 240 to 319 of the output window, at entry (p, q). -/
theorem pay6_apply (a : Vec Ideal S80x10000 .f32) (h : Vec Ideal S10000x128 .f32) (p : Fin 80) (q : Fin 128) :
    Cert.KernelIdeal.Gen.k0_pay6 (F := Ideal) a h (ix2 p q) = ∑ j : Fin 10000, a (ix2 p j) * h (ix2 j q) := by
  unfold Cert.KernelIdeal.Gen.k0_pay6
  exact blk_apply a h p q

end Cert.GraphConv.Pay

end
-- ==== Proof.KI.Value.lean ====
/-
  The result array of the idealized graph-convolution kernel is A (x W), entry by entry.

  Point t of the grid writes back rows 400 t … 400 t + 399 of the result. Its five tiles are the products of the rows
  400 t + 80 s … 400 t + 80 s + 79 of A with the scratch, and the scratch is x W: so row 400 t + r of what it writes back
  is the sum over the nodes j of A (400 t + r, j) (x W) (j, ·) — row 400 t + r of A (x W). The 25 blocks of 400 rows
  cover the 10000 rows, each row in the block of its quotient by 400; hence the array ends at A (x W).
-/
import proofs.«170854_g16054587753042_cont_sun_c4_396_23_alg».proof.Proof.KI.Pieces
import proofs.«170854_g16054587753042_cont_sun_c4_396_23_alg».proof.Proof.KI.Launch
import proofs.«170854_g16054587753042_cont_sun_c4_396_23_alg».proof.Proof.Spec
import proofs.«170854_g16054587753042_cont_sun_c4_396_23_alg».proof.Proof.PayloadAt
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

open Cert.GraphConv

/-! ## One point's five tiles are 400 consecutive rows of a matrix product -/

/-- Rows R … R + 399 of the product of A with a 10000 × 128 matrix h. -/
def rowsMix (A : Vec Ideal S10000x10000 .f32) (h : Vec Ideal S10000x128 .f32) (R : ℕ) (hR : R + 400 ≤ 10000) : Vec Ideal S400x128 .f32 :=
  fun y => ∑ j : Fin 10000, A (ix2 ⟨R + (y 0).val, by have : (y 0).val < 400 := (y 0).isLt; omega⟩ j) * h (ix2 j (y 1))

/-- The five tiles cover the 400 × 128 buffer. -/
theorem tiles_cover (x1 x2 x3 x4 x5 : Vec Ideal S80x10000 .f32) (h : Vec Ideal S10000x128 .f32) (y : S400x128.Idx) :
    ∃ p ∈ tiles (F := Ideal) x1 x2 x3 x4 x5 h, y ∈ p.1.set :=
  View.cover_of_tiledL (tiles (F := Ideal) x1 x2 x3 x4 x5 h) S80x128.size (by sl_kernel_rfl) y

/-- One tile: an 80-row block of A, rows R + o … R + o + 79, times h, stored at rows o … o + 79 of the buffer, is those
    rows of the 400-row product. -/
theorem tile_apply (A : Vec Ideal S10000x10000 .f32) (h : Vec Ideal S10000x128 .f32) (R : ℕ) (hR : R + 400 ≤ 10000)
    (o : ℕ) (ho : o + 80 ≤ 400) (inb : ∀ a, (![o, 0] : Fin 2 → Nat) a + S80x128.size a ≤ S400x128.size a)
    (a : Vec Ideal S80x10000 .f32)
    (ea : ∀ (p : Fin 80) (j : Fin 10000), a (ix2 p j) = A (ix2 ⟨R + o + p.val, by have := p.isLt; omega⟩ j))
    (w : Vec Ideal S80x128 .f32) (hw : ∀ (p : Fin 80) (q : Fin 128), w (ix2 p q) = ∑ j : Fin 10000, a (ix2 p j) * h (ix2 j q))
    (x : (Rect.unit (s := S400x128) ![o, 0] S80x128.size inb).shape.Idx) :
    w x = rowsMix A h R hR ((Rect.unit (s := S400x128) ![o, 0] S80x128.size inb).emb x) := by
  obtain ⟨p, q, rfl⟩ : ∃ (p : Fin 80) (q : Fin 128), x = ix2 p q := ⟨x 0, x 1, eq_ix2 x⟩
  refine (hw p q).trans ?_
  unfold rowsMix
  refine Finset.sum_congr rfl fun j _ => ?_
  rw [ea p j]
  have E1 : (ix2 (⟨R + o + p.val, by have := p.isLt; omega⟩ : Fin 10000) j : S10000x10000.Idx)
      = ix2 (⟨R + ((Rect.unit (s := S400x128) ![o, 0] S80x128.size inb).emb (ix2 p q) 0).val, by
          have : ((Rect.unit (s := S400x128) ![o, 0] S80x128.size inb).emb (ix2 p q) 0).val < 400 := ((Rect.unit (s := S400x128) ![o, 0] S80x128.size inb).emb (ix2 p q) 0).isLt
          omega⟩ : Fin 10000) j := by
    congr 1
    apply Fin.ext
    show R + o + p.val = R + (o + 1 * p.val)
    omega
  have E2 : (ix2 j q : S10000x128.Idx) = ix2 j ((Rect.unit (s := S400x128) ![o, 0] S80x128.size inb).emb (ix2 p q) 1) := by
    congr 1
    apply Fin.ext
    show q.val = 0 + 1 * q.val
    omega
  rw [E1, E2]
  rfl

/-- The five tiles over blocks of A that are rows R + 80 s … of it, s = 0 … 4, are rows R … R + 399 of A h. -/
theorem tiles_apply (A : Vec Ideal S10000x10000 .f32) (h : Vec Ideal S10000x128 .f32) (R : ℕ) (hR : R + 400 ≤ 10000)
    (x1 x2 x3 x4 x5 : Vec Ideal S80x10000 .f32)
    (e1 : ∀ (p : Fin 80) (j : Fin 10000), x1 (ix2 p j) = A (ix2 ⟨R + 0 + p.val, by have := p.isLt; omega⟩ j))
    (e2 : ∀ (p : Fin 80) (j : Fin 10000), x2 (ix2 p j) = A (ix2 ⟨R + 80 + p.val, by have := p.isLt; omega⟩ j))
    (e3 : ∀ (p : Fin 80) (j : Fin 10000), x3 (ix2 p j) = A (ix2 ⟨R + 160 + p.val, by have := p.isLt; omega⟩ j))
    (e4 : ∀ (p : Fin 80) (j : Fin 10000), x4 (ix2 p j) = A (ix2 ⟨R + 240 + p.val, by have := p.isLt; omega⟩ j))
    (e5 : ∀ (p : Fin 80) (j : Fin 10000), x5 (ix2 p j) = A (ix2 ⟨R + 320 + p.val, by have := p.isLt; omega⟩ j))
    (y : S400x128.Idx) :
    View.canon (tiles (F := Ideal) x1 x2 x3 x4 x5 h) y = rowsMix A h R hR y := by
  refine View.canon_apply_of_pieces (rowsMix A h R hR) _ ?_ y (tiles_cover x1 x2 x3 x4 x5 h y)
  intro p hp x
  simp only [tiles, List.mem_cons, List.mem_nil_iff, or_false] at hp
  rcases hp with rfl | rfl | rfl | rfl | rfl
  · exact tile_apply A h R hR 320 (by omega) inb_S400x128_S80x128_320_0 x5 e5 _ (Pay.pay1_apply x5 h) x
  · exact tile_apply A h R hR 240 (by omega) inb_S400x128_S80x128_240_0 x4 e4 _ (Pay.pay6_apply x4 h) x
  · exact tile_apply A h R hR 160 (by omega) inb_S400x128_S80x128_160_0 x3 e3 _ (Pay.pay5_apply x3 h) x
  · exact tile_apply A h R hR 80 (by omega) inb_S400x128_S80x128_80_0 x2 e2 _ (Pay.pay4_apply x2 h) x
  · exact tile_apply A h R hR 0 (by omega) inb_S400x128_S80x128_0_0 x1 e1 _ (Pay.pay3_apply x1 h) x

/-! ## The windows' blocks, read off the arrays -/

/-- The printed index maps, decided over the grid: window s on A is at block 5 t + s - 1 of 80 rows, the result's window
    at block t of 400 rows, the windows on x and W at their one block. -/
theorem blockIndex : ∀ t : Fin cfg0.N,
    win0_1.index t (0 : Fin 2) = 5 * t.val + 0 ∧ win0_1.index t (1 : Fin 2) = 0
    ∧ win0_2.index t (0 : Fin 2) = 5 * t.val + 1 ∧ win0_2.index t (1 : Fin 2) = 0
    ∧ win0_3.index t (0 : Fin 2) = 5 * t.val + 2 ∧ win0_3.index t (1 : Fin 2) = 0
    ∧ win0_4.index t (0 : Fin 2) = 5 * t.val + 3 ∧ win0_4.index t (1 : Fin 2) = 0
    ∧ win0_5.index t (0 : Fin 2) = 5 * t.val + 4 ∧ win0_5.index t (1 : Fin 2) = 0
    ∧ win0_7.index t (0 : Fin 2) = t.val ∧ win0_7.index t (1 : Fin 2) = 0
    ∧ win0_0.index t (0 : Fin 2) = 0 ∧ win0_0.index t (1 : Fin 2) = 0
    ∧ win0_6.index t (0 : Fin 2) = 0 ∧ win0_6.index t (1 : Fin 2) = 0 :=
  (by decide +kernel : ∀ t : Fin grid0.N, _)

/-- Window s on A at point t holds rows 400 t + 80 (s - 1) … of A. -/
theorem blockA1 (c : Dev nD) (t : Fin cfg0.N) (p : Fin 80) (j : Fin 10000) :
    iblk m c 1 t (ix2 p j) = m ((c : Thread nD τ).loc main_arg1) (ix2 ⟨400 * t.val + 0 + p.val, by have := t.isLt; have hN : cfg0.N = 25 := N_0; have := p.isLt; omega⟩ j) := by
  obtain ⟨e10, e11, e20, e21, e30, e31, e40, e41, e50, e51, e70, e71, e00, e01, e60, e61⟩ := blockIndex t
  show V m c main_arg1 (((cfg0.win 1).blk t).view.emb (ix2 p j)) = _
  refine congrArg (V m c main_arg1) (funext fun a => Fin.ext ?_)
  match a with
  | ⟨0, _⟩ => show win0_1.index t (0 : Fin 2) * 80 + 1 * p.val = 400 * t.val + 0 + p.val; omega
  | ⟨1, _⟩ => show win0_1.index t (1 : Fin 2) * 10000 + 1 * j.val = j.val; omega
theorem blockA2 (c : Dev nD) (t : Fin cfg0.N) (p : Fin 80) (j : Fin 10000) :
    iblk m c 2 t (ix2 p j) = m ((c : Thread nD τ).loc main_arg1) (ix2 ⟨400 * t.val + 80 + p.val, by have := t.isLt; have hN : cfg0.N = 25 := N_0; have := p.isLt; omega⟩ j) := by
  obtain ⟨e10, e11, e20, e21, e30, e31, e40, e41, e50, e51, e70, e71, e00, e01, e60, e61⟩ := blockIndex t
  show V m c main_arg1 (((cfg0.win 2).blk t).view.emb (ix2 p j)) = _
  refine congrArg (V m c main_arg1) (funext fun a => Fin.ext ?_)
  match a with
  | ⟨0, _⟩ => show win0_2.index t (0 : Fin 2) * 80 + 1 * p.val = 400 * t.val + 80 + p.val; omega
  | ⟨1, _⟩ => show win0_2.index t (1 : Fin 2) * 10000 + 1 * j.val = j.val; omega
theorem blockA3 (c : Dev nD) (t : Fin cfg0.N) (p : Fin 80) (j : Fin 10000) :
    iblk m c 3 t (ix2 p j) = m ((c : Thread nD τ).loc main_arg1) (ix2 ⟨400 * t.val + 160 + p.val, by have := t.isLt; have hN : cfg0.N = 25 := N_0; have := p.isLt; omega⟩ j) := by
  obtain ⟨e10, e11, e20, e21, e30, e31, e40, e41, e50, e51, e70, e71, e00, e01, e60, e61⟩ := blockIndex t
  show V m c main_arg1 (((cfg0.win 3).blk t).view.emb (ix2 p j)) = _
  refine congrArg (V m c main_arg1) (funext fun a => Fin.ext ?_)
  match a with
  | ⟨0, _⟩ => show win0_3.index t (0 : Fin 2) * 80 + 1 * p.val = 400 * t.val + 160 + p.val; omega
  | ⟨1, _⟩ => show win0_3.index t (1 : Fin 2) * 10000 + 1 * j.val = j.val; omega
theorem blockA4 (c : Dev nD) (t : Fin cfg0.N) (p : Fin 80) (j : Fin 10000) :
    iblk m c 4 t (ix2 p j) = m ((c : Thread nD τ).loc main_arg1) (ix2 ⟨400 * t.val + 240 + p.val, by have := t.isLt; have hN : cfg0.N = 25 := N_0; have := p.isLt; omega⟩ j) := by
  obtain ⟨e10, e11, e20, e21, e30, e31, e40, e41, e50, e51, e70, e71, e00, e01, e60, e61⟩ := blockIndex t
  show V m c main_arg1 (((cfg0.win 4).blk t).view.emb (ix2 p j)) = _
  refine congrArg (V m c main_arg1) (funext fun a => Fin.ext ?_)
  match a with
  | ⟨0, _⟩ => show win0_4.index t (0 : Fin 2) * 80 + 1 * p.val = 400 * t.val + 240 + p.val; omega
  | ⟨1, _⟩ => show win0_4.index t (1 : Fin 2) * 10000 + 1 * j.val = j.val; omega
theorem blockA5 (c : Dev nD) (t : Fin cfg0.N) (p : Fin 80) (j : Fin 10000) :
    iblk m c 5 t (ix2 p j) = m ((c : Thread nD τ).loc main_arg1) (ix2 ⟨400 * t.val + 320 + p.val, by have := t.isLt; have hN : cfg0.N = 25 := N_0; have := p.isLt; omega⟩ j) := by
  obtain ⟨e10, e11, e20, e21, e30, e31, e40, e41, e50, e51, e70, e71, e00, e01, e60, e61⟩ := blockIndex t
  show V m c main_arg1 (((cfg0.win 5).blk t).view.emb (ix2 p j)) = _
  refine congrArg (V m c main_arg1) (funext fun a => Fin.ext ?_)
  match a with
  | ⟨0, _⟩ => show win0_5.index t (0 : Fin 2) * 80 + 1 * p.val = 400 * t.val + 320 + p.val; omega
  | ⟨1, _⟩ => show win0_5.index t (1 : Fin 2) * 10000 + 1 * j.val = j.val; omega

/-- The window on x holds all of x, -/
theorem blockX (c : Dev nD) (t : Fin cfg0.N) : iblk m c 0 t = m ((c : Thread nD τ).loc main_arg0) := by
  obtain ⟨e10, e11, e20, e21, e30, e31, e40, e41, e50, e51, e70, e71, e00, e01, e60, e61⟩ := blockIndex t
  funext x
  show V m c main_arg0 (((cfg0.win 0).blk t).view.emb x) = V m c main_arg0 x
  refine congrArg (V m c main_arg0) (funext fun a => Fin.ext ?_)
  match a with
  | ⟨0, _⟩ => show win0_0.index t (0 : Fin 2) * 10000 + 1 * (x 0).val = (x 0).val; omega
  | ⟨1, _⟩ => show win0_0.index t (1 : Fin 2) * 128 + 1 * (x 1).val = (x 1).val; omega

/-- and the window on W all of W. -/
theorem blockW (c : Dev nD) (t : Fin cfg0.N) : iblk m c 6 t = m ((c : Thread nD τ).loc main_arg2) := by
  obtain ⟨e10, e11, e20, e21, e30, e31, e40, e41, e50, e51, e70, e71, e00, e01, e60, e61⟩ := blockIndex t
  funext x
  show V m c main_arg2 (((cfg0.win 6).blk t).view.emb x) = V m c main_arg2 x
  refine congrArg (V m c main_arg2) (funext fun a => Fin.ext ?_)
  match a with
  | ⟨0, _⟩ => show win0_6.index t (0 : Fin 2) * 128 + 1 * (x 0).val = (x 0).val; omega
  | ⟨1, _⟩ => show win0_6.index t (1 : Fin 2) * 128 + 1 * (x 1).val = (x 1).val; omega

/-! ## From the blocks to the array -/

/-- The scratch, from the first point on, is x W. -/
theorem H_eq (c : Dev nD) : H m c = feat (m ((c : Thread nD τ).loc main_arg0)) (m ((c : Thread nD τ).loc main_arg2)) := by
  unfold H
  rw [featFirst_eq, Pay.pay2_eq, blockX, blockW]

/-- What the result's buffer holds after point t: rows 400 t … 400 t + 399 of A (x W). -/
theorem outAt_eq (c : Dev nD) (t : Fin cfg0.N) (y : S400x128.Idx) :
    outAt m c t y = rowsMix (m ((c : Thread nD τ).loc main_arg1))
      (feat (m ((c : Thread nD τ).loc main_arg0)) (m ((c : Thread nD τ).loc main_arg2))) (400 * t.val)
      (by have := t.isLt; have hN : cfg0.N = 25 := N_0; omega) y := by
  by_cases hz : t.val = 0
  · rw [outAt_first m c t hz, outFirst_eq, Pay.pay2_eq, blockX, blockW]
    exact tiles_apply _ _ _ _ _ _ _ _ _ (blockA1 m c t) (blockA2 m c t) (blockA3 m c t) (blockA4 m c t) (blockA5 m c t) y
  · rw [outAt_later m c t hz, outLater_eq, H_eq]
    exact tiles_apply _ _ _ _ _ _ _ _ _ (blockA1 m c t) (blockA2 m c t) (blockA3 m c t) (blockA4 m c t) (blockA5 m c t) y

/-- What point t writes back is block t of A (x W). -/
theorem flushed_eq (c : Dev nD) (t : Fin cfg0.N) :
    (dats m 0 c).flushed 7 t = ((cfg0.win 7).blk t).view.read (Elt Ideal)
      (G (m ((c : Thread nD τ).loc main_arg0)) (m ((c : Thread nD τ).loc main_arg1)) (m ((c : Thread nD τ).loc main_arg2))) := by
  show (cfg0.win 7).cut (grid0.coords t) ((dats m 0 c).after 7 t) = _
  rw [after7]
  obtain ⟨e10, e11, e20, e21, e30, e31, e40, e41, e50, e51, e70, e71, e00, e01, e60, e61⟩ := blockIndex t
  funext y
  show outAt m c t y = G _ _ _ (((cfg0.win 7).blk t).view.emb y)
  rw [outAt_eq]
  obtain ⟨p, q, rfl⟩ : ∃ (p : Fin 400) (q : Fin 128), y = ix2 p q := ⟨y 0, y 1, eq_ix2 y⟩
  have E : ((cfg0.win 7).blk t).view.emb (ix2 p q)
      = ix2 (⟨400 * t.val + p.val, by have := t.isLt; have hN : cfg0.N = 25 := N_0; have := p.isLt; omega⟩ : Fin 10000) q :=
    funext fun a => Fin.ext (by
      match a with
      | ⟨0, _⟩ => show win0_7.index t (0 : Fin 2) * 400 + 1 * p.val = 400 * t.val + p.val; omega
      | ⟨1, _⟩ => show win0_7.index t (1 : Fin 2) * 128 + 1 * q.val = q.val; omega)
  rw [E, G_ix2]
  rfl

/-- A row of the array is in point t's block iff it is one of rows 400 t … 400 t + 399. -/
theorem mem_block (t : Fin cfg0.N) (i : S10000x128.Idx) :
    i ∈ ((cfg0.win 7).blk t).view.set ↔ ∀ a : Fin 2, win0_7.index t a * S400x128.size a ≤ (i a).val ∧ (i a).val < win0_7.index t a * S400x128.size a + S400x128.size a := by
  show i ∈ ((View.whole main_v0).slice (win0_7.rect t)).set ↔ _
  rw [View.set_slice_whole, Rect.mem_set_unit]
  exact Iff.rfl

/-- The result array ends at A (x W): its 25 blocks of 400 rows cover it, row r in the block of r / 400. -/
theorem final (c : Dev nD) : (dats m 0 c).arrAt 7 cfg0.N
    = G (m ((c : Thread nD τ).loc main_arg0)) (m ((c : Thread nD τ).loc main_arg1)) (m ((c : Thread nD τ).loc main_arg2)) :=
  (dats m 0 c).arrAt_eq_of_cover 7 _ (fun t _ => flushed_eq m c t) fun i => by
    have hi0 : (i 0).val < 10000 := (i 0).isLt
    have hi1 : (i 1).val < 128 := (i 1).isLt
    have hN : cfg0.N = 25 := N_0
    obtain ⟨e10, e11, e20, e21, e30, e31, e40, e41, e50, e51, e70, e71, e00, e01, e60, e61⟩ :=
      blockIndex ⟨(i 0).val / 400, by omega⟩
    refine ⟨⟨(i 0).val / 400, by omega⟩, flush0_7 _, ?_⟩
    rw [mem_block]
    intro a
    match a with
    | ⟨0, _⟩ =>
      show win0_7.index ⟨(i 0).val / 400, _⟩ (0 : Fin 2) * 400 ≤ (i 0).val ∧ (i 0).val < win0_7.index ⟨(i 0).val / 400, _⟩ (0 : Fin 2) * 400 + 400
      rw [e70]; dsimp only; omega
    | ⟨1, _⟩ =>
      show win0_7.index ⟨(i 0).val / 400, _⟩ (1 : Fin 2) * 128 ≤ (i 1).val ∧ (i 1).val < win0_7.index ⟨(i 0).val / 400, _⟩ (1 : Fin 2) * 128 + 128
      rw [e71]; omega

/-- The run, read: the result array at A (x W), the three arguments unchanged. -/
theorem run_value : θ_run defs (onTc (τ := τ) (main (F := Ideal))) ⟨m, fun _ => 0, ρ⟩ (fun r => ∀ c : Dev nD,
      r.2.mem ((c.tc : Thread nD τ).loc main_v0)
        = G (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final m c), (h c).2⟩) (run_named m ρ)

end Cert.KernelIdeal.Hand

end
-- ==== Proof.RefIsSpec.lean ====
/-
  The reference computes the graph-convolution product.

  The reference is two matrix products, x W and then A (x W). Each is, entry by entry, the sum over the contracted axis
  of the products of the two operands' entries, and the operands' entries are addressed by (row, contracted) on the
  left and (contracted, column) on the right. Written with coordinates, that is the nested sum of the specification.
-/
import proofs.«170854_g16054587753042_cont_sun_c4_396_23_alg».proof.Proof.Gen.ReferenceIdeal.Read
import proofs.«170854_g16054587753042_cont_sun_c4_396_23_alg».proof.Proof.Spec

noncomputable section

namespace Cert.GraphConv.Ref

open Idealize.ShloMosaic Idealize.ShloMosaic.ValueIdx Idealize.SL.Sem
open Cert.ReferenceIdeal Cert.ReferenceIdeal.Read

/-- In x W, the left operand is read at (row of the entry, k). -/
theorem lidx_feat (i : S10000x128.Idx) (k : Fin 128) : lidx_main_v0 i k = ix2 (i 0) k :=
  funext fun a => Fin.ext (by match a with | ⟨0, _⟩ => rfl | ⟨1, _⟩ => rfl)

/-- In x W, the right operand is read at (k, column of the entry). -/
theorem ridx_feat (i : S10000x128.Idx) (k : Fin 128) : ridx_main_v0 i k = ix2 k (i 1) :=
  funext fun a => Fin.ext (by match a with | ⟨0, _⟩ => rfl | ⟨1, _⟩ => rfl)

/-- In A (x W), the left operand is read at (row of the entry, j). -/
theorem lidx_out (i : S10000x128.Idx) (j : Fin 10000) : lidx_main_v1 i j = ix2 (i 0) j :=
  funext fun a => Fin.ext (by match a with | ⟨0, _⟩ => rfl | ⟨1, _⟩ => rfl)

/-- In A (x W), the right operand is read at (j, column of the entry). -/
theorem ridx_out (i : S10000x128.Idx) (j : Fin 10000) : ridx_main_v1 i j = ix2 j (i 1) :=
  funext fun a => Fin.ext (by match a with | ⟨0, _⟩ => rfl | ⟨1, _⟩ => rfl)

/-- The reference's first product is the mixed features x W of the specification. -/
theorem ref_feat_eq (x0 : (⟨S10000x128, .f32⟩ : BufTy).Contents (Elt Ideal)) (x2 : (⟨S128x128, .f32⟩ : BufTy).Contents (Elt Ideal)) :
    val_main_v0 (F := Ideal) x0 x2 = Cert.GraphConv.feat x0 x2 := by
  funext i
  rw [val_main_v0_apply]
  refine Finset.sum_congr rfl fun k _ => ?_
  rw [lidx_feat, ridx_feat]
  rfl

/-- The reference's result is the specification: entry (p, q) is the sum over the nodes j of A (p, j) (x W) (j, q),
    and (x W) (j, q) is the sum over the channels k of x (j, k) W (k, q). -/
theorem ref_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    val_main_v1 (F := Ideal) x0 x1 x2 = Cert.GraphConv.G x0 x1 x2 := by
  funext i
  rw [val_main_v1_apply, ref_feat_eq]
  refine Finset.sum_congr rfl fun j _ => ?_
  rw [lidx_out, ridx_out]
  rfl

end Cert.GraphConv.Ref

end
-- ==== Proof.lean ====
/-
  The graph-convolution kernel out = A (x W) against its reference, over the extended reals.

  x is 10000 × 128 (node features), A is 10000 × 10000 (a dense matrix over the nodes), W is 128 × 128 (channel mixing).
  The kernel walks a grid of 25 points; at the first it stores h = x W into a scratch array that it keeps, and at every
  point it multiplies five 80-row blocks of A — read through five windows on the one array A — by h and writes the 400
  resulting rows back. The reference computes h = x W and then A h. Over the extended reals both are, entry by entry,
  the same nested finite sum: out (p, q) = sum over the nodes j of A (p, j) times (sum over the channels k of
  x (j, k) W (k, q)). The grouping is the same on both sides, so no law of arithmetic is needed and the finiteness of the
  inputs is never used: the two sides are literally one function of the arguments (Cert.GraphConv.G).

  The three frames: the kernel as printed and the kernel idealized each run to the end, fault nowhere and leave their
  arguments unchanged — by the body's run at the first point and at a later point, the invariant that the scratch holds
  x W from the first point on, and the launch of a region whose windows share an array, A's full share dealt among its
  five windows —; the reference's frame is its straight-line run. The idealization rewrote nothing. The value: each
  point's five tiles are 400 consecutive rows of A (x W), and the 25 blocks cover the result array.
-/
import proofs.«170854_g16054587753042_cont_sun_c4_396_23_alg».proof.Defs
import proofs.«170854_g16054587753042_cont_sun_c4_396_23_alg».proof.Proof.Gen.Kernel
import proofs.«170854_g16054587753042_cont_sun_c4_396_23_alg».proof.Proof.Gen.KernelIdeal
import proofs.«170854_g16054587753042_cont_sun_c4_396_23_alg».proof.Proof.Gen.ReferenceIdeal
import proofs.«170854_g16054587753042_cont_sun_c4_396_23_alg».proof.Proof.Gen.Pre_finite_inputs
import proofs.«170854_g16054587753042_cont_sun_c4_396_23_alg».proof.Proof.Gen.ReferenceIdeal.Run
import proofs.«170854_g16054587753042_cont_sun_c4_396_23_alg».proof.Proof.Gen.ReferenceIdeal.Read
import proofs.«170854_g16054587753042_cont_sun_c4_396_23_alg».proof.Proof.K.Launch
import proofs.«170854_g16054587753042_cont_sun_c4_396_23_alg».proof.Proof.KI.Value
import proofs.«170854_g16054587753042_cont_sun_c4_396_23_alg».proof.Proof.RefIsSpec
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its straight-line run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array ends at A (x W) and the reference's at its two matrix products
    composed, of arguments that agree: one function, entry by entry. -/
theorem algebraic : Cert.algebraic_KernelIdeal_ReferenceIdeal := by
  intro m ρ m' ρ' _ hagree
  refine ⟨fun c => Cert.GraphConv.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.GraphConv.Ref.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
